-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x128 : Shape := ⟨3, ![4, 2048, 128]⟩
abbrev S4x2048x16x128 : Shape := ⟨4, ![4, 2048, 16, 128]⟩
abbrev S4x2048x16x32 : Shape := ⟨4, ![4, 2048, 16, 32]⟩
abbrev S_ : Shape := ⟨0, ![]⟩

class Facts : Prop where
  bcast_S_S4x2048x128 : S_.BroadcastsInDim S4x2048x128 (![] : Fin 0 → Fin S4x2048x128.rank)
  reducesTo_S4x2048x128_S_d0_1_2 : S4x2048x128.ReducesTo [0, 1, 2] S_
  h_S_ : 0 < S_.numel
  bcast_S_S4x2048x16x128 : S_.BroadcastsInDim S4x2048x16x128 (![] : Fin 0 → Fin S4x2048x16x128.rank)
  reducesTo_S4x2048x16x128_S_d0_1_2_3 : S4x2048x16x128.ReducesTo [0, 1, 2, 3] S_
  bcast_S_S4x2048x16x32 : S_.BroadcastsInDim S4x2048x16x32 (![] : Fin 0 → Fin S4x2048x16x32.rank)
  reducesTo_S4x2048x16x32_S_d0_1_2_3 : S4x2048x16x32.ReducesTo [0, 1, 2, 3] S_

variable [Facts]

def fn_part1 {F : FTy → Type} [FloatOps F] (main_arg4 : FVec F S4x2048x16x32 .f32) (main_v13 : IVec S_ 1) (main_v16 : IVec S4x2048x16x128 1) : IVec S_ 1 :=
  let main_c_5 : IVec S_ 1 := constantI S_ 1 1#1
  let main_v17 : IVec S_ 1 := (fun x v => Host.reduce IntOp.andi x v reducesTo_S4x2048x16x128_S_d0_1_2_3 h_S_) main_v16 main_c_5
  let main_v18 : IVec S_ 1 := andi main_v13 main_v17
  let main_v19 : FVec F S4x2048x16x32 .f32 := Host.absf main_arg4
  let main_cst_6 : FVec F S_ .f32 := constant S_ .f32 0x7F800000#32
  let main_v20 : FVec F S4x2048x16x32 .f32 := broadcastInDim S4x2048x16x32 ![] bcast_S_S4x2048x16x32 main_cst_6
  let main_v21 : IVec S4x2048x16x32 1 := cmpf .olt main_v19 main_v20
  let main_c_7 : IVec S_ 1 := constantI S_ 1 1#1
  let main_v22 : IVec S_ 1 := (fun x v => Host.reduce IntOp.andi x v reducesTo_S4x2048x16x32_S_d0_1_2_3 h_S_) main_v21 main_c_7
  let main_v23 : IVec S_ 1 := andi main_v18 main_v22
  main_v23

def fn {F : FTy → Type} [FloatOps F] (main_arg0 : FVec F S4x2048x128 .f32) (main_arg1 : FVec F S4x2048x128 .f32) (main_arg2 : FVec F S4x2048x16x128 .f32) (main_arg3 : FVec F S4x2048x16x128 .f32) (main_arg4 : FVec F S4x2048x16x32 .f32) : IVec S_ 1 :=
  let main_v0 : FVec F S4x2048x128 .f32 := Host.absf main_arg0
  let main_cst : FVec F S_ .f32 := constant S_ .f32 0x7F800000#32
  let main_v1 : FVec F S4x2048x128 .f32 := broadcastInDim S4x2048x128 ![] bcast_S_S4x2048x128 main_cst
  let main_v2 : IVec S4x2048x128 1 := cmpf .olt main_v0 main_v1
  let main_c : IVec S_ 1 := constantI S_ 1 1#1
  let main_v3 : IVec S_ 1 := (fun x v => Host.reduce IntOp.andi x v reducesTo_S4x2048x128_S_d0_1_2 h_S_) main_v2 main_c
  let main_v4 : FVec F S4x2048x128 .f32 := Host.absf main_arg1
  let main_cst_0 : FVec F S_ .f32 := constant S_ .f32 0x7F800000#32
  let main_v5 : FVec F S4x2048x128 .f32 := broadcastInDim S4x2048x128 ![] bcast_S_S4x2048x128 main_cst_0
  let main_v6 : IVec S4x2048x128 1 := cmpf .olt main_v4 main_v5
  let main_c_1 : IVec S_ 1 := constantI S_ 1 1#1
  let main_v7 : IVec S_ 1 := (fun x v => Host.reduce IntOp.andi x v reducesTo_S4x2048x128_S_d0_1_2 h_S_) main_v6 main_c_1
  let main_v8 : IVec S_ 1 := andi main_v3 main_v7
  let main_v9 : FVec F S4x2048x16x128 .f32 := Host.absf main_arg2
  let main_cst_2 : FVec F S_ .f32 := constant S_ .f32 0x7F800000#32
  let main_v10 : FVec F S4x2048x16x128 .f32 := broadcastInDim S4x2048x16x128 ![] bcast_S_S4x2048x16x128 main_cst_2
  let main_v11 : IVec S4x2048x16x128 1 := cmpf .olt main_v9 main_v10
  let main_c_3 : IVec S_ 1 := constantI S_ 1 1#1
  let main_v12 : IVec S_ 1 := (fun x v => Host.reduce IntOp.andi x v reducesTo_S4x2048x16x128_S_d0_1_2_3 h_S_) main_v11 main_c_3
  let main_v13 : IVec S_ 1 := andi main_v8 main_v12
  let main_v14 : FVec F S4x2048x16x128 .f32 := Host.absf main_arg3
  let main_cst_4 : FVec F S_ .f32 := constant S_ .f32 0x7F800000#32
  let main_v15 : FVec F S4x2048x16x128 .f32 := broadcastInDim S4x2048x16x128 ![] bcast_S_S4x2048x16x128 main_cst_4
  let main_v16 : IVec S4x2048x16x128 1 := cmpf .olt main_v14 main_v15
  fn_part1 (F := F) main_arg4 main_v13 main_v16
-- ==== Kernel.lean ====
abbrev S4x2048x128 : Shape := ⟨3, ![4, 2048, 128]⟩
abbrev S4x2048x16x128 : Shape := ⟨4, ![4, 2048, 16, 128]⟩
abbrev S4x2048x16x32 : Shape := ⟨4, ![4, 2048, 16, 32]⟩
abbrev S4x2048x32x4 : Shape := ⟨4, ![4, 2048, 32, 4]⟩
abbrev S4x2048x16x32x4 : Shape := ⟨5, ![4, 2048, 16, 32, 4]⟩
abbrev S4x2048x16x4 : Shape := ⟨4, ![4, 2048, 16, 4]⟩
abbrev S1x8x32x4 : Shape := ⟨4, ![1, 8, 32, 4]⟩
abbrev S1x8x16x32x4 : Shape := ⟨5, ![1, 8, 16, 32, 4]⟩
abbrev S1x8x16x32 : Shape := ⟨4, ![1, 8, 16, 32]⟩
abbrev S1x8x16x4 : Shape := ⟨4, ![1, 8, 16, 4]⟩
abbrev S8x32x4 : Shape := ⟨3, ![8, 32, 4]⟩
abbrev S8x16x32x4 : Shape := ⟨4, ![8, 16, 32, 4]⟩
abbrev S8x16x32 : Shape := ⟨3, ![8, 16, 32]⟩
abbrev S1x16x1x1 : Shape := ⟨4, ![1, 16, 1, 1]⟩
abbrev S8x1x32x4 : Shape := ⟨4, ![8, 1, 32, 4]⟩
abbrev S8x16x4 : Shape := ⟨3, ![8, 16, 4]⟩
abbrev S8x16x1x4 : Shape := ⟨4, ![8, 16, 1, 4]⟩
abbrev S8x1x4 : Shape := ⟨3, ![8, 1, 4]⟩
abbrev S8x1x1x4 : Shape := ⟨4, ![8, 1, 1, 4]⟩
abbrev S8x16x32x1 : Shape := ⟨4, ![8, 16, 32, 1]⟩

abbrev nBuf : Space → Nat
  | .hbm => 12
  | .vmem => 14
  | .smem => 0
  | _ => 0

abbrev bufTy : (tb : Table) → Fin (tcTables nBuf tb) → BufTy
  | .hbm, ⟨0, _⟩ => ⟨S4x2048x128, .f32⟩
  | .hbm, ⟨1, _⟩ => ⟨S4x2048x128, .f32⟩
  | .hbm, ⟨2, _⟩ => ⟨S4x2048x16x128, .f32⟩
  | .hbm, ⟨3, _⟩ => ⟨S4x2048x16x128, .f32⟩
  | .hbm, ⟨4, _⟩ => ⟨S4x2048x16x32, .f32⟩
  | .hbm, ⟨5, _⟩ => ⟨S4x2048x32x4, .f32⟩
  | .hbm, ⟨6, _⟩ => ⟨S4x2048x32x4, .f32⟩
  | .hbm, ⟨7, _⟩ => ⟨S4x2048x16x32x4, .f32⟩
  | .hbm, ⟨8, _⟩ => ⟨S4x2048x16x32x4, .f32⟩
  | .hbm, ⟨9, _⟩ => ⟨S4x2048x32x4, .f32⟩
  | .hbm, ⟨10, _⟩ => ⟨S4x2048x16x4, .f32⟩
  | .hbm, ⟨11, _⟩ => ⟨S4x2048x128, .f32⟩
  | .local _ .vmem, ⟨0, _⟩ => ⟨S1x8x32x4, .f32⟩
  | .local _ .vmem, ⟨1, _⟩ => ⟨S1x8x32x4, .f32⟩
  | .local _ .vmem, ⟨2, _⟩ => ⟨S1x8x32x4, .f32⟩
  | .local _ .vmem, ⟨3, _⟩ => ⟨S1x8x32x4, .f32⟩
  | .local _ .vmem, ⟨4, _⟩ => ⟨S1x8x16x32x4, .f32⟩
  | .local _ .vmem, ⟨5, _⟩ => ⟨S1x8x16x32x4, .f32⟩
  | .local _ .vmem, ⟨6, _⟩ => ⟨S1x8x16x32x4, .f32⟩
  | .local _ .vmem, ⟨7, _⟩ => ⟨S1x8x16x32x4, .f32⟩
  | .local _ .vmem, ⟨8, _⟩ => ⟨S1x8x16x32, .f32⟩
  | .local _ .vmem, ⟨9, _⟩ => ⟨S1x8x16x32, .f32⟩
  | .local _ .vmem, ⟨10, _⟩ => ⟨S1x8x32x4, .f32⟩
  | .local _ .vmem, ⟨11, _⟩ => ⟨S1x8x32x4, .f32⟩
  | .local _ .vmem, ⟨12, _⟩ => ⟨S1x8x16x4, .f32⟩
  | .local _ .vmem, ⟨13, _⟩ => ⟨S1x8x16x4, .f32⟩
  | _, _ => ⟨S4x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 256], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x8x32x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x32x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x16x32x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x16x32x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x16x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x32x4 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x16x4 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S4x2048x128_S4x2048x32x4 : S4x2048x128.ShapeCasts S4x2048x32x4
  shapeCasts_S4x2048x16x128_S4x2048x16x32x4 : S4x2048x16x128.ShapeCasts S4x2048x16x32x4
  inb_S1x8x32x4_S1x8x32x4_0_0_0_0 : ∀ a, (![0, 0, 0, 0] : Fin 4 → Nat) a + S1x8x32x4.size a ≤ S1x8x32x4.size a
  h_S1x8x32x4 : 0 < S1x8x32x4.numel
  shapeCasts_S1x8x32x4_S8x32x4 : S1x8x32x4.ShapeCasts S8x32x4
  inb_S1x8x16x32x4_S1x8x16x32x4_0_0_0_0_0 : ∀ a, (![0, 0, 0, 0, 0] : Fin 5 → Nat) a + S1x8x16x32x4.size a ≤ S1x8x16x32x4.size a
  h_S1x8x16x32x4 : 0 < S1x8x16x32x4.numel
  shapeCasts_S1x8x16x32x4_S8x16x32x4 : S1x8x16x32x4.ShapeCasts S8x16x32x4
  inb_S1x8x16x32_S1x8x16x32_0_0_0_0 : ∀ a, (![0, 0, 0, 0] : Fin 4 → Nat) a + S1x8x16x32.size a ≤ S1x8x16x32.size a
  h_S1x8x16x32 : 0 < S1x8x16x32.numel
  shapeCasts_S1x8x16x32_S8x16x32 : S1x8x16x32.ShapeCasts S8x16x32
  iota_S1x16x1x1_d1_w32 : S1x16x1x1.Iotas .tc 32 [1]
  natLt_1_32 : 1 < 32
  shapeCasts_S8x32x4_S8x1x32x4 : S8x32x4.ShapeCasts S8x1x32x4
  broadcasts_S1x16x1x1_S8x16x32x4 : S1x16x1x1.Broadcasts S8x16x32x4
  broadcasts_S8x1x32x4_S8x16x32x4 : S8x1x32x4.Broadcasts S8x16x32x4
  reduces_S8x16x32x4_S8x16x4 : S8x16x32x4.Reduces [2] S8x16x4
  shapeCasts_S8x16x4_S8x16x1x4 : S8x16x4.ShapeCasts S8x16x1x4
  reduces_S8x16x1x4_S8x1x4 : S8x16x1x4.Reduces [1] S8x1x4
  shapeCasts_S8x1x4_S8x1x1x4 : S8x1x4.ShapeCasts S8x1x1x4
  broadcasts_S8x1x1x4_S8x16x32x4 : S8x1x1x4.Broadcasts S8x16x32x4
  shapeCasts_S8x16x32_S8x16x32x1 : S8x16x32.ShapeCasts S8x16x32x1
  broadcasts_S8x16x32x1_S8x16x32x4 : S8x16x32x1.Broadcasts S8x16x32x4
  slices_S8x16x4_o0_0_0_S8x1x4 : S8x16x4.Slices ![0, 0, 0] S8x1x4
  slices_S8x16x4_o0_1_0_S8x1x4 : S8x16x4.Slices ![0, 1, 0] S8x1x4
  slices_S8x16x4_o0_2_0_S8x1x4 : S8x16x4.Slices ![0, 2, 0] S8x1x4
  slices_S8x16x4_o0_3_0_S8x1x4 : S8x16x4.Slices ![0, 3, 0] S8x1x4
  slices_S8x16x4_o0_4_0_S8x1x4 : S8x16x4.Slices ![0, 4, 0] S8x1x4
  slices_S8x16x4_o0_5_0_S8x1x4 : S8x16x4.Slices ![0, 5, 0] S8x1x4
  slices_S8x16x4_o0_6_0_S8x1x4 : S8x16x4.Slices ![0, 6, 0] S8x1x4
  slices_S8x16x4_o0_7_0_S8x1x4 : S8x16x4.Slices ![0, 7, 0] S8x1x4
  slices_S8x16x4_o0_8_0_S8x1x4 : S8x16x4.Slices ![0, 8, 0] S8x1x4
  slices_S8x16x4_o0_9_0_S8x1x4 : S8x16x4.Slices ![0, 9, 0] S8x1x4
  slices_S8x16x4_o0_10_0_S8x1x4 : S8x16x4.Slices ![0, 10, 0] S8x1x4
  slices_S8x16x4_o0_11_0_S8x1x4 : S8x16x4.Slices ![0, 11, 0] S8x1x4
  slices_S8x16x4_o0_12_0_S8x1x4 : S8x16x4.Slices ![0, 12, 0] S8x1x4
  slices_S8x16x4_o0_13_0_S8x1x4 : S8x16x4.Slices ![0, 13, 0] S8x1x4
  slices_S8x16x4_o0_14_0_S8x1x4 : S8x16x4.Slices ![0, 14, 0] S8x1x4
  slices_S8x16x4_o0_15_0_S8x1x4 : S8x16x4.Slices ![0, 15, 0] S8x1x4
  broadcasts_S8x1x4_S8x16x4 : S8x1x4.Broadcasts S8x16x4
  inb_S1x8x16x4_S1x8x16x4_0_0_0_0 : ∀ a, (![0, 0, 0, 0] : Fin 4 → Nat) a + S1x8x16x4.size a ≤ S1x8x16x4.size a
  h_S1x8x16x4 : 0 < S1x8x16x4.numel
  shapeCasts_S1x8x16x4_S8x16x4 : S1x8x16x4.ShapeCasts S8x16x4
  shapeCasts_S8x16x4_S1x8x16x4 : S8x16x4.ShapeCasts S1x8x16x4
  broadcasts_S8x16x1x4_S8x16x32x4 : S8x16x1x4.Broadcasts S8x16x32x4
  reduces_S8x16x32x4_S8x32x4 : S8x16x32x4.Reduces [1] S8x32x4
  shapeCasts_S8x32x4_S1x8x32x4 : S8x32x4.ShapeCasts S1x8x32x4
  shapeCasts_S4x2048x32x4_S4x2048x128 : S4x2048x32x4.ShapeCasts S4x2048x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x32x4.size a ≤ S4x2048x32x4.size a
  hwx0_0 : ∀ i : grid0.Coords, EltTy.bits .f32 = 32 ∨ (Rect.block (s := S4x2048x32x4) S1x8x32x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x32x4.size a ≤ S4x2048x32x4.size a
  hwx0_1 : ∀ i : grid0.Coords, EltTy.bits .f32 = 32 ∨ (Rect.block (s := S4x2048x32x4) S1x8x32x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x16x32x4.size a ≤ S4x2048x16x32x4.size a
  hwx0_2 : ∀ i : grid0.Coords, EltTy.bits .f32 = 32 ∨ (Rect.block (s := S4x2048x16x32x4) S1x8x16x32x4.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x16x32x4.size a ≤ S4x2048x16x32x4.size a
  hwx0_3 : ∀ i : grid0.Coords, EltTy.bits .f32 = 32 ∨ (Rect.block (s := S4x2048x16x32x4) S1x8x16x32x4.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x16x32.size a ≤ S4x2048x16x32.size a
  hwx0_4 : ∀ i : grid0.Coords, EltTy.bits .f32 = 32 ∨ (Rect.block (s := S4x2048x16x32) S1x8x16x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x8x32x4.size a ≤ S4x2048x32x4.size a
  hwx0_5 : ∀ i : grid0.Coords, EltTy.bits .f32 = 32 ∨ (Rect.block (s := S4x2048x32x4) S1x8x32x4.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x8x16x4.size a ≤ S4x2048x16x4.size a
  hwx0_6 : ∀ i : grid0.Coords, EltTy.bits .f32 = 32 ∨ (Rect.block (s := S4x2048x16x4) S1x8x16x4.size (cc0_transform_6 i) (hinb0_6 i)).WholeWords (EltTy.packing .f32)

variable [Facts₀]

abbrev win0_0 : Pipeline.Window sig grid0 :=
  Pipeline.Window.ofSpec (Memref.whole main_v0) S1x8x32x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x8x32x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x8x16x32x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x8x16x32x4.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x8x16x32.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_0) S1x8x32x4.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_1) S1x8x16x4.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4x2048x128 : Shape := ⟨3, ![4, 2048, 128]⟩
abbrev S4x2048x16x128 : Shape := ⟨4, ![4, 2048, 16, 128]⟩
abbrev S4x2048x16x32 : Shape := ⟨4, ![4, 2048, 16, 32]⟩
abbrev S4x2048x32x4 : Shape := ⟨4, ![4, 2048, 32, 4]⟩
abbrev S4x2048x16x32x4 : Shape := ⟨5, ![4, 2048, 16, 32, 4]⟩
abbrev S_ : Shape := ⟨0, ![]⟩
abbrev S1 : Shape := ⟨1, ![1]⟩
abbrev S4x2048x1x32x4 : Shape := ⟨5, ![4, 2048, 1, 32, 4]⟩
abbrev S4x2048x4 : Shape := ⟨3, ![4, 2048, 4]⟩
abbrev S4x2048x1x1x4 : Shape := ⟨5, ![4, 2048, 1, 1, 4]⟩
abbrev S4x2048x16x32x1 : Shape := ⟨5, ![4, 2048, 16, 32, 1]⟩
abbrev S4x2048x16x4 : Shape := ⟨4, ![4, 2048, 16, 4]⟩
abbrev S4x2048x1x4 : Shape := ⟨4, ![4, 2048, 1, 4]⟩
abbrev S4x2048x16x1x4 : Shape := ⟨5, ![4, 2048, 16, 1, 4]⟩

abbrev nBuf : Space → Nat
  | .hbm => 44
  | .vmem => 0
  | .smem => 0
  | _ => 0

abbrev bufTy : (tb : Table) → Fin (tcTables nBuf tb) → BufTy
  | .hbm, ⟨0, _⟩ => ⟨S4x2048x128, .f32⟩
  | .hbm, ⟨1, _⟩ => ⟨S4x2048x128, .f32⟩
  | .hbm, ⟨2, _⟩ => ⟨S4x2048x16x128, .f32⟩
  | .hbm, ⟨3, _⟩ => ⟨S4x2048x16x128, .f32⟩
  | .hbm, ⟨4, _⟩ => ⟨S4x2048x16x32, .f32⟩
  | .hbm, ⟨5, _⟩ => ⟨S4x2048x32x4, .f32⟩
  | .hbm, ⟨6, _⟩ => ⟨S4x2048x32x4, .f32⟩
  | .hbm, ⟨7, _⟩ => ⟨S4x2048x16x32x4, .f32⟩
  | .hbm, ⟨8, _⟩ => ⟨S4x2048x16x32x4, .f32⟩
  | .hbm, ⟨9, _⟩ => ⟨S_, .i32⟩
  | .hbm, ⟨10, _⟩ => ⟨S1, .i32⟩
  | .hbm, ⟨11, _⟩ => ⟨S4x2048x16x32x4, .f32⟩
  | .hbm, ⟨12, _⟩ => ⟨S_, .f32⟩
  | .hbm, ⟨13, _⟩ => ⟨S4x2048x32x4, .f32⟩
  | .hbm, ⟨14, _⟩ => ⟨S4x2048x32x4, .f32⟩
  | .hbm, ⟨15, _⟩ => ⟨S4x2048x1x32x4, .f32⟩
  | .hbm, ⟨16, _⟩ => ⟨S4x2048x16x32x4, .f32⟩
  | .hbm, ⟨17, _⟩ => ⟨S4x2048x16x32x4, .f32⟩
  | .hbm, ⟨18, _⟩ => ⟨S_, .f32⟩
  | .hbm, ⟨19, _⟩ => ⟨S4x2048x4, .f32⟩
  | .hbm, ⟨20, _⟩ => ⟨S4x2048x1x1x4, .f32⟩
  | .hbm, ⟨21, _⟩ => ⟨S4x2048x16x32x4, .f32⟩
  | .hbm, ⟨22, _⟩ => ⟨S4x2048x16x32x4, .f32⟩
  | .hbm, ⟨23, _⟩ => ⟨S4x2048x16x32x1, .f32⟩
  | .hbm, ⟨24, _⟩ => ⟨S4x2048x16x32x4, .f32⟩
  | .hbm, ⟨25, _⟩ => ⟨S4x2048x16x32x4, .f32⟩
  | .hbm, ⟨26, _⟩ => ⟨S4x2048x16x32x4, .f32⟩
  | .hbm, ⟨27, _⟩ => ⟨S_, .f32⟩
  | .hbm, ⟨28, _⟩ => ⟨S4x2048x16x4, .f32⟩
  | .hbm, ⟨29, _⟩ => ⟨S4x2048x16x4, .f32⟩
  | .hbm, ⟨30, _⟩ => ⟨S_, .f32⟩
  | .hbm, ⟨31, _⟩ => ⟨S4x2048x4, .f32⟩
  | .hbm, ⟨32, _⟩ => ⟨S4x2048x1x4, .f32⟩
  | .hbm, ⟨33, _⟩ => ⟨S_, .f32⟩
  | .hbm, ⟨34, _⟩ => ⟨S4x2048x1x4, .f32⟩
  | .hbm, ⟨35, _⟩ => ⟨S4x2048x1x4, .f32⟩
  | .hbm, ⟨36, _⟩ => ⟨S4x2048x16x4, .f32⟩
  | .hbm, ⟨37, _⟩ => ⟨S4x2048x16x4, .f32⟩
  | .hbm, ⟨38, _⟩ => ⟨S4x2048x16x1x4, .f32⟩
  | .hbm, ⟨39, _⟩ => ⟨S4x2048x16x32x4, .f32⟩
  | .hbm, ⟨40, _⟩ => ⟨S4x2048x16x32x4, .f32⟩
  | .hbm, ⟨41, _⟩ => ⟨S_, .f32⟩
  | .hbm, ⟨42, _⟩ => ⟨S4x2048x32x4, .f32⟩
  | .hbm, ⟨43, _⟩ => ⟨S4x2048x128, .f32⟩
  | _, _ => ⟨S4x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]

class Facts₀ : Prop where
  shapeCasts_S4x2048x128_S4x2048x32x4 : S4x2048x128.ShapeCasts S4x2048x32x4
  shapeCasts_S4x2048x16x128_S4x2048x16x32x4 : S4x2048x16x128.ShapeCasts S4x2048x16x32x4
  bcast_S_S1 : S_.BroadcastsInDim S1 (![] : Fin 0 → Fin S1.rank)
  bcast_S_S4x2048x32x4 : S_.BroadcastsInDim S4x2048x32x4 (![] : Fin 0 → Fin S4x2048x32x4.rank)
  bcast_S4x2048x32x4_S4x2048x1x32x4_0_1_3_4 : S4x2048x32x4.BroadcastsInDim S4x2048x1x32x4 (![0, 1, 3, 4] : Fin 4 → Fin S4x2048x1x32x4.rank)
  bcast_S4x2048x1x32x4_S4x2048x16x32x4_0_1_2_3_4 : S4x2048x1x32x4.BroadcastsInDim S4x2048x16x32x4 (![0, 1, 2, 3, 4] : Fin 5 → Fin S4x2048x16x32x4.rank)
  reducesTo_S4x2048x16x32x4_S4x2048x4_d2_3 : S4x2048x16x32x4.ReducesTo [2, 3] S4x2048x4
  h_S_ : 0 < S_.numel
  bcast_S4x2048x4_S4x2048x1x1x4_0_1_4 : S4x2048x4.BroadcastsInDim S4x2048x1x1x4 (![0, 1, 4] : Fin 3 → Fin S4x2048x1x1x4.rank)
  bcast_S4x2048x1x1x4_S4x2048x16x32x4_0_1_2_3_4 : S4x2048x1x1x4.BroadcastsInDim S4x2048x16x32x4 (![0, 1, 2, 3, 4] : Fin 5 → Fin S4x2048x16x32x4.rank)
  bcast_S4x2048x16x32_S4x2048x16x32x1_0_1_2_3 : S4x2048x16x32.BroadcastsInDim S4x2048x16x32x1 (![0, 1, 2, 3] : Fin 4 → Fin S4x2048x16x32x1.rank)
  bcast_S4x2048x16x32x1_S4x2048x16x32x4_0_1_2_3_4 : S4x2048x16x32x1.BroadcastsInDim S4x2048x16x32x4 (![0, 1, 2, 3, 4] : Fin 5 → Fin S4x2048x16x32x4.rank)
  reducesTo_S4x2048x16x32x4_S4x2048x16x4_d3 : S4x2048x16x32x4.ReducesTo [3] S4x2048x16x4
  reducesTo_S4x2048x16x4_S4x2048x4_d2 : S4x2048x16x4.ReducesTo [2] S4x2048x4
  bcast_S4x2048x4_S4x2048x1x4_0_1_3 : S4x2048x4.BroadcastsInDim S4x2048x1x4 (![0, 1, 3] : Fin 3 → Fin S4x2048x1x4.rank)
  bcast_S_S4x2048x1x4 : S_.BroadcastsInDim S4x2048x1x4 (![] : Fin 0 → Fin S4x2048x1x4.rank)
  bcast_S4x2048x1x4_S4x2048x16x4_0_1_2_3 : S4x2048x1x4.BroadcastsInDim S4x2048x16x4 (![0, 1, 2, 3] : Fin 4 → Fin S4x2048x16x4.rank)
  bcast_S4x2048x16x4_S4x2048x16x1x4_0_1_2_4 : S4x2048x16x4.BroadcastsInDim S4x2048x16x1x4 (![0, 1, 2, 4] : Fin 4 → Fin S4x2048x16x1x4.rank)
  bcast_S4x2048x16x1x4_S4x2048x16x32x4_0_1_2_3_4 : S4x2048x16x1x4.BroadcastsInDim S4x2048x16x32x4 (![0, 1, 2, 3, 4] : Fin 5 → Fin S4x2048x16x32x4.rank)
  reducesTo_S4x2048x16x32x4_S4x2048x32x4_d2 : S4x2048x16x32x4.ReducesTo [2] S4x2048x32x4
  shapeCasts_S4x2048x32x4_S4x2048x128 : S4x2048x32x4.ShapeCasts S4x2048x128
  scatter_S4x2048x16x32x4_S1_S4x2048x32x4_0123_2_2_0_wf : ScatterDims.WF S4x2048x16x32x4 S1 S4x2048x32x4 [0, 1, 2, 3] [2] [2] 0

variable [Facts₀]

def scatter_S4x2048x16x32x4_S1_S4x2048x32x4_0123_2_2_0 : ScatterDims S4x2048x16x32x4 S1 S4x2048x32x4 where
  updateWindowDims := [0, 1, 2, 3]
  insertedWindowDims := [2]
  scatterDimsToOperandDims := [2]
  indexVectorDim := 0
  wf := scatter_S4x2048x16x32x4_S1_S4x2048x32x4_0123_2_2_0_wf

class Facts : Prop extends Facts₀ where

variable [Facts]
-- ==== Proof.Spec.lean ====
/-
  The mathematics both programs compute, per position (b, l) of the [4, 2048] grid of positions and per head h:

    scaled k f h = (ac k f h  [+ sa f h when k = 0]) · (beta f h + ε)          the neighbour scores, self term on slot 0
    peak h       = max over k, max over f of scaled k f h                       (from the -∞ word)
    mass k h     = Σ f, gw k f · exp (scaled k f h − peak h)                    per-neighbour weight
    coef k h     = mass k h / (Σ k', |mass k' h| + ε)                           normalised over the neighbours
    mix f h      = Σ k, no k f h · coef k h                                     the aggregated node outputs

  stated first for one position (functions of small Fin indices), then for whole arrays whose trailing feature axis
  has been split into (feature, head): the coefficient array [4, 2048, 16, 4] and the aggregate [4, 2048, 32, 4].
  The float words of ε and −∞ are kept as words: the same word stands on both sides and is never evaluated.
-/
import Idealize.ShloMosaic.PureOps.Ideal
import Idealize.ShloMosaic.Lib.ValueIdx

noncomputable section

open scoped BigOperators

namespace Cert.Attn

open Idealize.ShloMosaic Idealize.ShloMosaic.ValueIdx

/-! ## One position -/

section Row

variable (be sa : Fin 32 → Fin 4 → EReal) (ac no : Fin 16 → Fin 32 → Fin 4 → EReal) (gw : Fin 16 → Fin 32 → EReal)

/-- The score of neighbour slot `k`, feature `f`, head `h`: the self term joins slot 0 only, then the scale `beta + ε`. -/
def scaled (k : Fin 16) (f : Fin 32) (h : Fin 4) : EReal :=
  (if k = 0 then ac k f h + sa f h else ac k f h) * (be f h + Ideal.ofBits .f32 0x358637BD#32)

/-- The largest score of head `h` over all slots and features, as a maximum over slots of maxima over features. -/
def peak (h : Fin 4) : EReal :=
  (Finset.univ : Finset (Fin 16)).fold max (Ideal.ofBits .f32 0xFF800000#32) fun k =>
    (Finset.univ : Finset (Fin 32)).fold max (Ideal.ofBits .f32 0xFF800000#32) fun f => scaled be sa ac k f h

/-- The weight of slot `k` at head `h`: the graph weights against the stabilised exponentials, summed over features. -/
def mass (k : Fin 16) (h : Fin 4) : EReal :=
  ∑ f : Fin 32, gw k f * Ideal.exp (scaled be sa ac k f h - peak be sa ac h)

/-- The weight divided by the sum over the slots of the absolute weights, plus ε. -/
def coef (k : Fin 16) (h : Fin 4) : EReal :=
  Ideal.div (mass be sa ac gw k h)
    ((∑ k' : Fin 16, max (mass be sa ac gw k' h) (-(mass be sa ac gw k' h))) + Ideal.ofBits .f32 0x358637BD#32)

/-- The node outputs of the slots mixed by the coefficients. -/
def mix (f : Fin 32) (h : Fin 4) : EReal :=
  ∑ k : Fin 16, no k f h * coef be sa ac gw k h

end Row

/-! ## Whole arrays -/

abbrev Sbf : Shape := ⟨4, ![4, 2048, 32, 4]⟩
abbrev Sbkf : Shape := ⟨5, ![4, 2048, 16, 32, 4]⟩
abbrev Sgw : Shape := ⟨4, ![4, 2048, 16, 32]⟩
abbrev Sfin : Shape := ⟨4, ![4, 2048, 16, 4]⟩

/-- The coefficient array: entry (b, l, k, h) is `coef` of position (b, l)'s rows. -/
def coefArr (r0 r1 : Sbf.Idx → EReal) (r2 : Sbkf.Idx → EReal) (a4 : Sgw.Idx → EReal) : Sfin.Idx → EReal :=
  fun i => coef (fun f h => r0 (ix4 (i 0) (i 1) f h)) (fun f h => r1 (ix4 (i 0) (i 1) f h))
    (fun k f h => r2 (ix5 (i 0) (i 1) k f h)) (fun k f => a4 (ix4 (i 0) (i 1) k f)) (i 2) (i 3)

/-- The aggregate array: entry (b, l, f, h) is `mix` of position (b, l)'s rows. -/
def mixArr (r0 r1 : Sbf.Idx → EReal) (r2 r3 : Sbkf.Idx → EReal) (a4 : Sgw.Idx → EReal) : Sbf.Idx → EReal :=
  fun i => mix (fun f h => r0 (ix4 (i 0) (i 1) f h)) (fun f h => r1 (ix4 (i 0) (i 1) f h))
    (fun k f h => r2 (ix5 (i 0) (i 1) k f h)) (fun k f h => r3 (ix5 (i 0) (i 1) k f h))
    (fun k f => a4 (ix4 (i 0) (i 1) k f)) (i 2) (i 3)

end Cert.Attn

end
-- ==== Proof.LibScatterAt.lean ====
/-
  A scatter read at one element of its result.

  The host's scatter is a left fold over the update indices in row-major order. Each update index `j` lands on
  an operand index (`ScatterDims.resultIdx? j idx`) or on none, and a step of the fold replaces the running
  result's element there by the body `f` applied to that element and the update's element. Read at one operand
  index `i`, for any dimension numbers and any body:
    * if no update index lands on `i`, the result holds the operand's element `x i` (`scatter_apply_of_none`);
    * if exactly one update index `j` lands on `i`, the result holds `f (x i) (upd j)` (`scatter_apply_of_unique`).
  Both follow from two facts about a left fold of functions read at one point (`foldl_apply_keep`,
  `foldl_apply_once`): steps that do not change the value at the point can be dropped, and among distinct steps a
  single one that changes it there is the only one seen.
-/
import Idealize.ShloMosaic.PureOps.ShapeOps

namespace Cert.ScatterAt

open Idealize.ShloMosaic

section Fold

variable {β ι σ : Type}

/-- A left fold of functions, read at a point `i` none of whose steps changes the value at `i`, is the initial
    function at `i`. -/
theorem foldl_apply_keep (g : (σ → β) → ι → (σ → β)) (i : σ) :
    ∀ (l : List ι) (r : σ → β), (∀ n ∈ l, ∀ r', g r' n i = r' i) → l.foldl g r i = r i
  | [], _, _ => rfl
  | a :: l, r, h => by
    rw [List.foldl_cons, foldl_apply_keep g i l (g r a) fun n hn => h n (List.mem_cons_of_mem a hn)]
    exact h a List.mem_cons_self r

/-- A left fold of functions over pairwise distinct steps, read at a point `i` where one step `n0` applies `F`
    to the value at `i` and every other step keeps it, is `F` of the initial function at `i`. -/
theorem foldl_apply_once (g : (σ → β) → ι → (σ → β)) (i : σ) (F : β → β) (n0 : ι)
    (h0 : ∀ r', g r' n0 i = F (r' i)) :
    ∀ (l : List ι) (r : σ → β), l.Nodup → n0 ∈ l → (∀ n ∈ l, n ≠ n0 → ∀ r', g r' n i = r' i) →
      l.foldl g r i = F (r i)
  | [], _, _, hm, _ => absurd hm List.not_mem_nil
  | a :: l, r, hnd, hm, h => by
    rw [List.foldl_cons]
    by_cases ha : a = n0
    · subst ha
      rw [foldl_apply_keep g i l (g r a) fun n hn =>
        h n (List.mem_cons_of_mem a hn) fun hna => (List.nodup_cons.mp hnd).1 (hna ▸ hn)]
      exact h0 r
    · have hm' : n0 ∈ l := (List.mem_cons.mp hm).resolve_left fun e => ha e.symm
      rw [foldl_apply_once g i F n0 h0 l (g r a) (List.nodup_cons.mp hnd).2 hm'
        fun n hn => h n (List.mem_cons_of_mem a hn)]
      exact congrArg F (h a List.mem_cons_self ha r)

end Fold

variable {s si u : Shape} {α : Type} {w : Nat}

/-- An operand index on which no update index lands keeps the operand's element. -/
theorem scatter_apply_of_none (d : ScatterDims s si u) (f : α → α → α) (x : s.Idx → α) (idx : IVec si w)
    (upd : u.Idx → α) (i : s.Idx) (hnone : ∀ j, d.resultIdx? j idx ≠ some i) :
    Host.scatter d f x idx upd i = x i := by
  unfold Host.scatter
  refine foldl_apply_keep _ i _ x fun n _ r' => ?_
  have hn := hnone (u.rowMajor.symm n)
  generalize d.resultIdx? (u.rowMajor.symm n) idx = o at hn
  cases o with
  | none => rfl
  | some i0 => exact if_neg fun (e : i = i0) => hn (by rw [e])

/-- An operand index on which exactly one update index `j` lands holds the body applied to the operand's element
    and that update's element. -/
theorem scatter_apply_of_unique (d : ScatterDims s si u) (f : α → α → α) (x : s.Idx → α) (idx : IVec si w)
    (upd : u.Idx → α) (i : s.Idx) (j : u.Idx) (hj : d.resultIdx? j idx = some i)
    (huniq : ∀ j', d.resultIdx? j' idx = some i → j' = j) :
    Host.scatter d f x idx upd i = f (x i) (upd j) := by
  unfold Host.scatter
  refine foldl_apply_once _ i (fun a => f a (upd j)) (u.rowMajor j) (fun r' => ?_) _ x
    (List.nodup_finRange _) (List.mem_finRange _) fun n _ hne r' => ?_
  · show (match d.resultIdx? (u.rowMajor.symm (u.rowMajor j)) idx with
      | some i0 => fun i' => if i' = i0 then f (r' i0) (upd (u.rowMajor.symm (u.rowMajor j))) else r' i'
      | none => r') i = f (r' i) (upd j)
    rw [Equiv.symm_apply_apply, hj]
    exact if_pos rfl
  · have hn : d.resultIdx? (u.rowMajor.symm n) idx ≠ some i := fun e =>
      hne (by rw [← huniq _ e, Equiv.apply_symm_apply])
    generalize d.resultIdx? (u.rowMajor.symm n) idx = o at hn
    cases o with
    | none => rfl
    | some i0 => exact if_neg fun (e : i = i0) => hn (by rw [e])

end Cert.ScatterAt
-- ==== Proof.RefSide.lean ====
/-
  The reference side of the bridge: the reference program's two results, read one element at a time, are the
  arrays of Spec.lean.

  Per position (b, l) and head h the reference computes
    scaled k f h = (ac k f h [+ sa f h when k = 0]) * (beta f h + eps)
    peak h       = max over (k, f) of scaled k f h
    mass k h     = sum over f of gw k f * exp (scaled k f h - peak h)
    coef k h     = mass k h / (sum over k' of |mass k' h| + eps)
    mix f h      = sum over k of no k f h * coef k h
  and the generated Read module reads every stage of it at an index from its operands, except two, read here:
    * the scatter that adds the self term to neighbour slot 0. Its single scatter index is the constant 0, so update
      index (b, l, f, h) lands on operand index (b, l, 0, f, h) and on no other: an element of slot 0 meets exactly
      one update and an element of another slot none (`scatter_at`, from the general lemmas of LibScatterAt.lean);
    * the maximum over the two axes (k, f) at once, a fold of `max` over the set of operand indices that drop to
      (b, l, h). It equals the nested fold (over k of the fold over f) because both have the same upper bounds
      (`max_at`); the initial word is never evaluated.
  The four reshaped inputs (`val_main_v0` ... `val_main_v3`) stay opaque arrays: Spec.lean's arrays are stated over them.
-/
import proofs.«111106_j18090402250757_2_alg».proof.Proof.Spec
import proofs.«111106_j18090402250757_2_alg».proof.Proof.Gen.ReferenceIdeal.Read
import proofs.«111106_j18090402250757_2_alg».proof.Proof.LibScatterAt
import Idealize.ShloMosaic.Lib.ValueIdx
import Idealize.ShloMosaic.PureOps.Ideal.Laws

noncomputable section

open scoped BigOperators

namespace Cert.Attn.Ref

open Idealize.ShloMosaic Idealize.ShloMosaic.ValueIdx Cert.ReferenceIdeal Cert.ReferenceIdeal.Gen

/-! ## The scatter: the self term joins slot 0 -/

/-- The reference's scatter dimension numbers: the update's four axes are window axes going to the operand's
    axes 0, 1, 3, 4; the operand's axis 2 is inserted and is the one the scatter index addresses. -/
abbrev dSc := scatter_S4x2048x16x32x4_S1_S4x2048x32x4_0123_2_2_0

/-- With the scatter index 0, start plus window coordinate of update index `j` on each operand axis is the
    coordinate of (j 0, j 1, 0, j 2, j 3). -/
theorem start_add_window (idx : IVec S1 32) (h0 : ∀ k, idx k = 0#32) (j : S4x2048x32x4.Idx) (a : Fin 5) :
    dSc.start j idx a + (dSc.window j a : Int) = ((ix5 (j 0) (j 1) (0 : Fin 16) (j 2) (j 3) a).val : Int) := by
  match a with
  | ⟨0, _⟩ =>
    have hs : dSc.start j idx ⟨0, by decide⟩ = 0 := by unfold ScatterDims.start; exact dif_neg (by decide)
    rw [hs, zero_add]; rfl
  | ⟨1, _⟩ =>
    have hs : dSc.start j idx ⟨1, by decide⟩ = 0 := by unfold ScatterDims.start; exact dif_neg (by decide)
    rw [hs, zero_add]; rfl
  | ⟨2, _⟩ =>
    have hs : dSc.start j idx ⟨2, by decide⟩ = 0 := by
      unfold ScatterDims.start; rw [dif_pos (by decide), h0]; rfl
    rw [hs, zero_add]; rfl
  | ⟨3, _⟩ =>
    have hs : dSc.start j idx ⟨3, by decide⟩ = 0 := by unfold ScatterDims.start; exact dif_neg (by decide)
    rw [hs, zero_add]; rfl
  | ⟨4, _⟩ =>
    have hs : dSc.start j idx ⟨4, by decide⟩ = 0 := by unfold ScatterDims.start; exact dif_neg (by decide)
    rw [hs, zero_add]; rfl

/-- Update index (b, l, f, h) lands on operand index (b, l, 0, f, h). -/
theorem landing (idx : IVec S1 32) (h0 : ∀ k, idx k = 0#32) (j : S4x2048x32x4.Idx) :
    dSc.resultIdx? j idx = some (ix5 (j 0) (j 1) (0 : Fin 16) (j 2) (j 3)) := by
  unfold ScatterDims.resultIdx?
  have hb : ∀ a, 0 ≤ dSc.start j idx a + dSc.window j a ∧
      dSc.start j idx a + dSc.window j a < S4x2048x16x32x4.size a := by
    intro a
    rw [start_add_window idx h0 j a]
    exact ⟨Int.natCast_nonneg _, by exact_mod_cast (ix5 (j 0) (j 1) (0 : Fin 16) (j 2) (j 3) a).isLt⟩
  rw [dif_pos hb]
  refine congrArg some (funext fun a => Fin.ext ?_)
  show (dSc.start j idx a + dSc.window j a).toNat = _
  rw [start_add_window idx h0 j a]
  exact Int.toNat_natCast _

/-- The scatter at (b, l, k, f, h): on slot 0 the body applied to the operand's element and the update's element at
    (b, l, f, h); on every other slot the operand's element. -/
theorem scatter_at {α : Type} (f : α → α → α) (x : S4x2048x16x32x4.Idx → α) (idx : IVec S1 32)
    (h0 : ∀ k, idx k = 0#32) (upd : S4x2048x32x4.Idx → α)
    (b : Fin 4) (l : Fin 2048) (k : Fin 16) (c : Fin 32) (h : Fin 4) :
    Host.scatter dSc f x idx upd (ix5 b l k c h)
      = if k = 0 then f (x (ix5 b l k c h)) (upd (ix4 b l c h)) else x (ix5 b l k c h) := by
  by_cases hk : k = 0
  · subst hk
    rw [if_pos rfl]
    refine Cert.ScatterAt.scatter_apply_of_unique dSc f x idx upd _ (ix4 b l c h) (landing idx h0 _) fun j' hj' => ?_
    rw [landing idx h0 j'] at hj'
    have e := Option.some.inj hj'
    have e0 : j' 0 = b := congrFun e 0
    have e1 : j' 1 = l := congrFun e 1
    have e2 : j' 2 = c := congrFun e 3
    have e3 : j' 3 = h := congrFun e 4
    funext a
    match a with
    | ⟨0, _⟩ => exact e0
    | ⟨1, _⟩ => exact e1
    | ⟨2, _⟩ => exact e2
    | ⟨3, _⟩ => exact e3
  · rw [if_neg hk]
    refine Cert.ScatterAt.scatter_apply_of_none dSc f x idx upd _ fun j hj => ?_
    rw [landing idx h0 j] at hj
    exact hk (congrFun (Option.some.inj hj) 2).symm

/-! ## The maximum over the two axes (k, f) -/

abbrev hRed := reducesTo_S4x2048x16x32x4_S4x2048x4_d2_3

/-- An operand index drops to (b, l, h) exactly when its coordinates 0, 1 and 4 are b, l and h. -/
theorem drop_eq_iff (i : S4x2048x16x32x4.Idx) (b : Fin 4) (l : Fin 2048) (h : Fin 4) :
    hRed.drop i = ix3 b l h ↔ i 0 = b ∧ i 1 = l ∧ i 4 = h := by
  constructor
  · intro e
    have e0 : ((hRed.drop i ⟨0, by decide⟩ : Fin _) : Nat) = b.val := by rw [e]
    have e1 : ((hRed.drop i ⟨1, by decide⟩ : Fin _) : Nat) = l.val := by rw [e]
    have e2 : ((hRed.drop i ⟨2, by decide⟩ : Fin _) : Nat) = h.val := by rw [e]
    exact ⟨Fin.ext ((Shape.ReducesTo.drop_apply_val_of_eq hRed i ⟨0, by decide⟩ ⟨0, by decide⟩).symm.trans e0),
      Fin.ext ((Shape.ReducesTo.drop_apply_val_of_eq hRed i ⟨1, by decide⟩ ⟨1, by decide⟩).symm.trans e1),
      Fin.ext ((Shape.ReducesTo.drop_apply_val_of_eq hRed i ⟨2, by decide⟩ ⟨4, by decide⟩).symm.trans e2)⟩
  · rintro ⟨rfl, rfl, rfl⟩
    funext a
    match a with
    | ⟨0, _⟩ => exact Fin.ext (Shape.ReducesTo.drop_apply_val_of_eq hRed i ⟨0, by decide⟩ ⟨0, by decide⟩)
    | ⟨1, _⟩ => exact Fin.ext (Shape.ReducesTo.drop_apply_val_of_eq hRed i ⟨1, by decide⟩ ⟨1, by decide⟩)
    | ⟨2, _⟩ => exact Fin.ext (Shape.ReducesTo.drop_apply_val_of_eq hRed i ⟨2, by decide⟩ ⟨4, by decide⟩)

/-- At the ideal values the float maximum is the extended reals' `max`, so a fold of one is a fold of the other. -/
theorem fold_maximumf_eq {ι : Type} (s : Finset ι) (c : EReal) (x : ι → EReal) :
    Finset.fold (FloatOps.maximumf (F := Ideal) (φ := .f32)) c x s = Finset.fold max c x s := rfl

/-- The maximum over the axes (k, f) at (b, l, h) is the maximum over k of the maxima over f, both from the initial
    value: the two have the same upper bounds. -/
theorem max_at (x : S4x2048x16x32x4.Idx → EReal) (init : S_.Idx → EReal) (b : Fin 4) (l : Fin 2048) (h : Fin 4) :
    Host.reduce (FloatOps.maximumf (F := Ideal) (φ := .f32)) x init hRed h_S_ (ix3 b l h)
      = (Finset.univ : Finset (Fin 16)).fold max (init (Shape.Idx.first h_S_)) fun k =>
          (Finset.univ : Finset (Fin 32)).fold max (init (Shape.Idx.first h_S_)) fun c => x (ix5 b l k c h) := by
  rw [Host.reduce_eq_fold, fold_maximumf_eq]
  refine eq_of_forall_ge_iff fun z => ?_
  simp only [Finset.fold_max_le, Finset.mem_filter, Finset.mem_univ, true_and, forall_true_left]
  constructor
  · rintro ⟨hc, hx⟩
    exact ⟨hc, fun k => ⟨hc, fun c => hx _ ((drop_eq_iff _ b l h).mpr ⟨rfl, rfl, rfl⟩)⟩⟩
  · rintro ⟨hc, hx⟩
    refine ⟨hc, fun i hi => ?_⟩
    obtain ⟨rfl, rfl, rfl⟩ := (drop_eq_iff i b l h).mp hi
    have := (hx (i 2)).2 (i 3)
    rw [eq_ix5 i]
    exact this

/-! ## The stages at explicit coordinates -/

section Stages

variable (x0 x1 : (⟨S4x2048x128, .f32⟩ : BufTy).Contents (Elt Ideal))
  (x2 x3 : (⟨S4x2048x16x128, .f32⟩ : BufTy).Contents (Elt Ideal))
  (x4 : (⟨S4x2048x16x32, .f32⟩ : BufTy).Contents (Elt Ideal))

/-- The rows of position (b, l) that Spec.lean's one-position functions take. -/
abbrev beRow (b : Fin 4) (l : Fin 2048) : Fin 32 → Fin 4 → EReal := fun f h => Read.val_main_v0 (F := Ideal) x0 (ix4 b l f h)
abbrev saRow (b : Fin 4) (l : Fin 2048) : Fin 32 → Fin 4 → EReal := fun f h => Read.val_main_v1 (F := Ideal) x1 (ix4 b l f h)
abbrev acRow (b : Fin 4) (l : Fin 2048) : Fin 16 → Fin 32 → Fin 4 → EReal := fun k f h => Read.val_main_v2 (F := Ideal) x2 (ix5 b l k f h)
abbrev noRow (b : Fin 4) (l : Fin 2048) : Fin 16 → Fin 32 → Fin 4 → EReal := fun k f h => Read.val_main_v3 (F := Ideal) x3 (ix5 b l k f h)
abbrev gwRow (b : Fin 4) (l : Fin 2048) : Fin 16 → Fin 32 → EReal := fun k f => x4 (ix4 b l k f)

/-- The scatter index array holds the word 0. -/
theorem v4_zero (k : S1.Idx) : Read.val_main_v4 (F := Ideal) k = 0#32 :=
  (Read.val_main_v4_apply k).trans (Read.val_main_c_apply _)

/-- The scaled scores: stage 10 at (b, l, k, f, h). -/
theorem v10_at (b : Fin 4) (l : Fin 2048) (k : Fin 16) (c : Fin 32) (h : Fin 4) :
    Read.val_main_v10 (F := Ideal) x0 x1 x2 (ix5 b l k c h)
      = scaled (beRow x0 b l) (saRow x1 b l) (acRow x2 b l) k c h := by
  have hi : Read.idx_main_v8 (Read.idx_main_v9 (ix5 b l k c h)) = ix4 b l c h :=
    funext fun a => Fin.ext (by match a with | ⟨0, _⟩ => rfl | ⟨1, _⟩ => rfl | ⟨2, _⟩ => rfl | ⟨3, _⟩ => rfl)
  rw [Read.val_main_v10_apply, Read.val_main_v9_apply, Read.val_main_v8_apply, Read.val_main_v7_apply,
    Read.val_main_v6_apply, Read.val_main_cst_apply, hi]
  unfold Read.val_main_v5
  rw [scatter_at _ _ _ (v4_zero) _ b l k c h]
  rfl

/-- The peak: stage 11 at (b, l, h). -/
theorem v11_at (b : Fin 4) (l : Fin 2048) (h : Fin 4) :
    Read.val_main_v11 (F := Ideal) x0 x1 x2 (ix3 b l h)
      = peak (beRow x0 b l) (saRow x1 b l) (acRow x2 b l) h := by
  unfold Read.val_main_v11
  rw [max_at]
  unfold peak
  simp only [v10_at]
  rfl

/-- The masses: stage 19 at (b, l, k, h). -/
theorem v19_at (b : Fin 4) (l : Fin 2048) (k : Fin 16) (h : Fin 4) :
    Read.val_main_v19 (F := Ideal) x0 x1 x2 x4 (ix4 b l k h)
      = mass (beRow x0 b l) (saRow x1 b l) (acRow x2 b l) (gwRow x4 b l) k h := by
  rw [Read.val_main_v19_apply, Read.val_main_cst_1_apply]
  unfold mass
  rw [show FloatOps.ofBits (F := Ideal) .f32 0x00000000#32 = 0 from Ideal.ofBits_zero_f32, zero_add]
  refine Finset.sum_congr rfl fun c _ => ?_
  have hi : Read.idx_main_v19 (ix4 b l k h) c = ix5 b l k c h :=
    funext fun a => Fin.ext (by match a with | ⟨0, _⟩ => rfl | ⟨1, _⟩ => rfl | ⟨2, _⟩ => rfl | ⟨3, _⟩ => rfl | ⟨4, _⟩ => rfl)
  have hg : Read.idx_main_v15 (Read.idx_main_v17 (ix5 b l k c h)) = ix4 b l k c :=
    funext fun a => Fin.ext (by match a with | ⟨0, _⟩ => rfl | ⟨1, _⟩ => rfl | ⟨2, _⟩ => rfl | ⟨3, _⟩ => rfl)
  have hp : Read.idx_main_v12 (Read.idx_main_v13 (ix5 b l k c h)) = ix3 b l h :=
    funext fun a => Fin.ext (by match a with | ⟨0, _⟩ => rfl | ⟨1, _⟩ => rfl | ⟨2, _⟩ => rfl)
  rw [hi, Read.val_main_v18_apply, Read.val_main_v17_apply, Read.val_main_v15_apply, hg, Read.val_main_v16_apply,
    Read.val_main_v14_apply, Read.val_main_v13_apply, Read.val_main_v12_apply, hp, v10_at, v11_at]
  rfl

/-- The normaliser: stage 25 at (b, l, k, h), the sum over the slots of the absolute masses plus eps. -/
theorem v25_at (b : Fin 4) (l : Fin 2048) (k : Fin 16) (h : Fin 4) :
    Read.val_main_v25 (F := Ideal) x0 x1 x2 x4 (ix4 b l k h)
      = (∑ k' : Fin 16, max (mass (beRow x0 b l) (saRow x1 b l) (acRow x2 b l) (gwRow x4 b l) k' h)
            (-(mass (beRow x0 b l) (saRow x1 b l) (acRow x2 b l) (gwRow x4 b l) k' h)))
          + Ideal.ofBits .f32 0x358637BD#32 := by
  have hi : Read.idx_main_v22 (Read.idx_main_v25 (ix4 b l k h)) = ix3 b l h :=
    funext fun a => Fin.ext (by match a with | ⟨0, _⟩ => rfl | ⟨1, _⟩ => rfl | ⟨2, _⟩ => rfl)
  rw [Read.val_main_v25_apply, Read.val_main_v24_apply, Read.val_main_v22_apply, Read.val_main_v23_apply,
    Read.val_main_cst_3_apply, hi, Read.val_main_v21_apply, Read.val_main_cst_2_apply]
  rw [show FloatOps.ofBits (F := Ideal) .f32 0x00000000#32 = 0 from Ideal.ofBits_zero_f32, zero_add]
  have hs : ∀ k' : Fin 16, Read.val_main_v20 (F := Ideal) x0 x1 x2 x4 (Read.idx_main_v21 (ix3 b l h) k')
      = max (mass (beRow x0 b l) (saRow x1 b l) (acRow x2 b l) (gwRow x4 b l) k' h)
          (-(mass (beRow x0 b l) (saRow x1 b l) (acRow x2 b l) (gwRow x4 b l) k' h)) := by
    intro k'
    have hk : Read.idx_main_v21 (ix3 b l h) k' = ix4 b l k' h :=
      funext fun a => Fin.ext (by match a with | ⟨0, _⟩ => rfl | ⟨1, _⟩ => rfl | ⟨2, _⟩ => rfl | ⟨3, _⟩ => rfl)
    rw [hk, Read.val_main_v20_apply, v19_at]
    rfl
  simp only [hs]
  rfl

end Stages

/-! ## The two results -/

/-- The reference's coefficient result is Spec.lean's coefficient array of the reshaped inputs. -/
theorem ref_coef (x0 x1 : (⟨S4x2048x128, .f32⟩ : BufTy).Contents (Elt Ideal))
    (x2 : (⟨S4x2048x16x128, .f32⟩ : BufTy).Contents (Elt Ideal))
    (x4 : (⟨S4x2048x16x32, .f32⟩ : BufTy).Contents (Elt Ideal)) :
    Read.val_main_v26 (F := Ideal) x0 x1 x2 x4
      = Cert.Attn.coefArr (Read.val_main_v0 (F := Ideal) x0) (Read.val_main_v1 (F := Ideal) x1)
          (Read.val_main_v2 (F := Ideal) x2) x4 := by
  funext i
  obtain ⟨b, l, k, h, rfl⟩ : ∃ b l k h, i = ix4 b l k h := ⟨i 0, i 1, i 2, i 3, eq_ix4 i⟩
  rw [Read.val_main_v26_apply, v19_at, v25_at]
  rfl

/-- The reference's aggregate, before its final reshape, is Spec.lean's aggregate array of the reshaped inputs. -/
theorem ref_mix (x0 x1 : (⟨S4x2048x128, .f32⟩ : BufTy).Contents (Elt Ideal))
    (x2 x3 : (⟨S4x2048x16x128, .f32⟩ : BufTy).Contents (Elt Ideal))
    (x4 : (⟨S4x2048x16x32, .f32⟩ : BufTy).Contents (Elt Ideal)) :
    Read.val_main_v30 (F := Ideal) x0 x1 x2 x3 x4
      = Cert.Attn.mixArr (Read.val_main_v0 (F := Ideal) x0) (Read.val_main_v1 (F := Ideal) x1)
          (Read.val_main_v2 (F := Ideal) x2) (Read.val_main_v3 (F := Ideal) x3) x4 := by
  funext i
  obtain ⟨b, l, c, h, rfl⟩ : ∃ b l c h, i = ix4 b l c h := ⟨i 0, i 1, i 2, i 3, eq_ix4 i⟩
  rw [Read.val_main_v30_apply, Read.val_main_cst_4_apply]
  rw [show FloatOps.ofBits (F := Ideal) .f32 0x00000000#32 = 0 from Ideal.ofBits_zero_f32, zero_add]
  show _ = mix _ _ _ _ _ c h
  unfold mix
  refine Finset.sum_congr rfl fun k _ => ?_
  have hi : Read.idx_main_v30 (ix4 b l c h) k = ix5 b l k c h :=
    funext fun a => Fin.ext (by match a with | ⟨0, _⟩ => rfl | ⟨1, _⟩ => rfl | ⟨2, _⟩ => rfl | ⟨3, _⟩ => rfl | ⟨4, _⟩ => rfl)
  have hc : Read.idx_main_v27 (Read.idx_main_v28 (ix5 b l k c h)) = ix4 b l k h :=
    funext fun a => Fin.ext (by match a with | ⟨0, _⟩ => rfl | ⟨1, _⟩ => rfl | ⟨2, _⟩ => rfl | ⟨3, _⟩ => rfl)
  rw [hi, Read.val_main_v29_apply, Read.val_main_v28_apply, Read.val_main_v27_apply, hc, ref_coef]
  rfl

end Cert.Attn.Ref

end
-- ==== Proof.Lay.lean ====
/-
  Readings at an index of the layout operations and lane reductions a tile of neighbour scores goes through:
  a tile is [8, 16, 32, 4] (positions, neighbour slots, features, heads); its row vectors are [8, 32, 4], its graph
  weights [8, 16, 32], its per-slot weights [8, 16, 4], its per-position totals [8, 1, 4]. Every reading names both
  indices by coordinates. The maxima and sums are over the extended reals.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Attn.Lay

open Idealize.ShloMosaic Idealize.ShloMosaic.ValueIdx

variable {α : Type}

/-! ## Shape casts -/

/-- A [1, 8, 16, 32, 4] block seen as a tile: (t, k, f, h) reads (0, t, k, f, h). -/
theorem cast_block5 (x : (⟨5, ![1, 8, 16, 32, 4]⟩ : Shape).Idx → α)
    (hc : (⟨5, ![1, 8, 16, 32, 4]⟩ : Shape).ShapeCasts ⟨4, ![8, 16, 32, 4]⟩) (t : Fin 8) (k : Fin 16) (f : Fin 32) (h : Fin 4) :
    shapeCast ⟨4, ![8, 16, 32, 4]⟩ x hc (ix4 t k f h) = x (ix5 (0 : Fin 1) t k f h) :=
  shapeCast_apply x hc _ _ (by
    rw [Shape.rowMajor_val_five, Shape.rowMajor_val_four]
    show ((((0 * 8 + t.val) * 16 + k.val) * 32 + f.val) * 4 + h.val) = ((t.val * 16 + k.val) * 32 + f.val) * 4 + h.val
    omega)

/-- A row vector [8, 32, 4] stood up with a unit slot axis: (t, u, f, h) reads (t, f, h). -/
theorem cast_row_up (x : (⟨3, ![8, 32, 4]⟩ : Shape).Idx → α)
    (hc : (⟨3, ![8, 32, 4]⟩ : Shape).ShapeCasts ⟨4, ![8, 1, 32, 4]⟩) (t : Fin 8) (u : Fin 1) (f : Fin 32) (h : Fin 4) :
    shapeCast ⟨4, ![8, 1, 32, 4]⟩ x hc (ix4 t u f h) = x (ix3 t f h) :=
  shapeCast_apply x hc _ _ (by
    have hu : u.val = 0 := by omega
    rw [Shape.rowMajor_val_three, Shape.rowMajor_val_four]
    show (t.val * 32 + f.val) * 4 + h.val = ((t.val * 1 + u.val) * 32 + f.val) * 4 + h.val
    omega)

/-- Per-slot values [8, 16, 4] given a unit feature axis: (t, k, u, h) reads (t, k, h). -/
theorem cast_slot_up (x : (⟨3, ![8, 16, 4]⟩ : Shape).Idx → α)
    (hc : (⟨3, ![8, 16, 4]⟩ : Shape).ShapeCasts ⟨4, ![8, 16, 1, 4]⟩) (t : Fin 8) (k : Fin 16) (u : Fin 1) (h : Fin 4) :
    shapeCast ⟨4, ![8, 16, 1, 4]⟩ x hc (ix4 t k u h) = x (ix3 t k h) :=
  shapeCast_apply x hc _ _ (by
    have hu : u.val = 0 := by omega
    rw [Shape.rowMajor_val_three, Shape.rowMajor_val_four]
    show (t.val * 16 + k.val) * 4 + h.val = ((t.val * 16 + k.val) * 1 + u.val) * 4 + h.val
    omega)

/-- Per-position values [8, 1, 4] given one more unit axis: (t, u, u', h) reads (t, u, h). -/
theorem cast_pos_up (x : (⟨3, ![8, 1, 4]⟩ : Shape).Idx → α)
    (hc : (⟨3, ![8, 1, 4]⟩ : Shape).ShapeCasts ⟨4, ![8, 1, 1, 4]⟩) (t : Fin 8) (u u' : Fin 1) (h : Fin 4) :
    shapeCast ⟨4, ![8, 1, 1, 4]⟩ x hc (ix4 t u u' h) = x (ix3 t u h) :=
  shapeCast_apply x hc _ _ (by
    have hu : u.val = 0 := by omega
    have hu' : u'.val = 0 := by omega
    rw [Shape.rowMajor_val_three, Shape.rowMajor_val_four]
    show (t.val * 1 + u.val) * 4 + h.val = ((t.val * 1 + u.val) * 1 + u'.val) * 4 + h.val
    omega)

/-- Graph weights [8, 16, 32] given a unit head axis: (t, k, f, u) reads (t, k, f). -/
theorem cast_gw_up (x : (⟨3, ![8, 16, 32]⟩ : Shape).Idx → α)
    (hc : (⟨3, ![8, 16, 32]⟩ : Shape).ShapeCasts ⟨4, ![8, 16, 32, 1]⟩) (t : Fin 8) (k : Fin 16) (f : Fin 32) (u : Fin 1) :
    shapeCast ⟨4, ![8, 16, 32, 1]⟩ x hc (ix4 t k f u) = x (ix3 t k f) :=
  shapeCast_apply x hc _ _ (by
    have hu : u.val = 0 := by omega
    rw [Shape.rowMajor_val_three, Shape.rowMajor_val_four]
    show (t.val * 16 + k.val) * 32 + f.val = ((t.val * 16 + k.val) * 32 + f.val) * 1 + u.val
    omega)

/-! ## Broadcasts over a tile -/

/-- A row [8, 1, 32, 4] spread over the slots. -/
theorem spread_slots (x : (⟨4, ![8, 1, 32, 4]⟩ : Shape).Idx → α)
    (hb : (⟨4, ![8, 1, 32, 4]⟩ : Shape).Broadcasts ⟨4, ![8, 16, 32, 4]⟩) (t : Fin 8) (k : Fin 16) (f : Fin 32) (h : Fin 4) :
    broadcastTo ⟨4, ![8, 16, 32, 4]⟩ x hb (ix4 t k f h) = x (ix4 t (0 : Fin 1) f h) :=
  broadcastTo_apply x hb _ _ fun a => match a with
    | ⟨0, _⟩ => rfl | ⟨1, _⟩ => rfl | ⟨2, _⟩ => rfl | ⟨3, _⟩ => rfl

/-- A per-slot mask [1, 16, 1, 1] spread over the tile. -/
theorem spread_mask (x : (⟨4, ![1, 16, 1, 1]⟩ : Shape).Idx → α)
    (hb : (⟨4, ![1, 16, 1, 1]⟩ : Shape).Broadcasts ⟨4, ![8, 16, 32, 4]⟩) (t : Fin 8) (k : Fin 16) (f : Fin 32) (h : Fin 4) :
    broadcastTo ⟨4, ![8, 16, 32, 4]⟩ x hb (ix4 t k f h) = x (ix4 (0 : Fin 1) k (0 : Fin 1) (0 : Fin 1)) :=
  broadcastTo_apply x hb _ _ fun a => match a with
    | ⟨0, _⟩ => rfl | ⟨1, _⟩ => rfl | ⟨2, _⟩ => rfl | ⟨3, _⟩ => rfl

/-- A per-position, per-head value [8, 1, 1, 4] spread over slots and features. -/
theorem spread_pos (x : (⟨4, ![8, 1, 1, 4]⟩ : Shape).Idx → α)
    (hb : (⟨4, ![8, 1, 1, 4]⟩ : Shape).Broadcasts ⟨4, ![8, 16, 32, 4]⟩) (t : Fin 8) (k : Fin 16) (f : Fin 32) (h : Fin 4) :
    broadcastTo ⟨4, ![8, 16, 32, 4]⟩ x hb (ix4 t k f h) = x (ix4 t (0 : Fin 1) (0 : Fin 1) h) :=
  broadcastTo_apply x hb _ _ fun a => match a with
    | ⟨0, _⟩ => rfl | ⟨1, _⟩ => rfl | ⟨2, _⟩ => rfl | ⟨3, _⟩ => rfl

/-- Graph weights [8, 16, 32, 1] spread over the heads. -/
theorem spread_heads (x : (⟨4, ![8, 16, 32, 1]⟩ : Shape).Idx → α)
    (hb : (⟨4, ![8, 16, 32, 1]⟩ : Shape).Broadcasts ⟨4, ![8, 16, 32, 4]⟩) (t : Fin 8) (k : Fin 16) (f : Fin 32) (h : Fin 4) :
    broadcastTo ⟨4, ![8, 16, 32, 4]⟩ x hb (ix4 t k f h) = x (ix4 t k f (0 : Fin 1)) :=
  broadcastTo_apply x hb _ _ fun a => match a with
    | ⟨0, _⟩ => rfl | ⟨1, _⟩ => rfl | ⟨2, _⟩ => rfl | ⟨3, _⟩ => rfl

/-- Per-slot values [8, 16, 1, 4] spread over the features. -/
theorem spread_feats (x : (⟨4, ![8, 16, 1, 4]⟩ : Shape).Idx → α)
    (hb : (⟨4, ![8, 16, 1, 4]⟩ : Shape).Broadcasts ⟨4, ![8, 16, 32, 4]⟩) (t : Fin 8) (k : Fin 16) (f : Fin 32) (h : Fin 4) :
    broadcastTo ⟨4, ![8, 16, 32, 4]⟩ x hb (ix4 t k f h) = x (ix4 t k (0 : Fin 1) h) :=
  broadcastTo_apply x hb _ _ fun a => match a with
    | ⟨0, _⟩ => rfl | ⟨1, _⟩ => rfl | ⟨2, _⟩ => rfl | ⟨3, _⟩ => rfl

/-- A per-position total [8, 1, 4] spread over the slots of [8, 16, 4]. -/
theorem spread_total (x : (⟨3, ![8, 1, 4]⟩ : Shape).Idx → α)
    (hb : (⟨3, ![8, 1, 4]⟩ : Shape).Broadcasts ⟨3, ![8, 16, 4]⟩) (t : Fin 8) (k : Fin 16) (h : Fin 4) :
    broadcastTo ⟨3, ![8, 16, 4]⟩ x hb (ix3 t k h) = x (ix3 t (0 : Fin 1) h) :=
  broadcastTo_apply x hb _ _ fun a => match a with
    | ⟨0, _⟩ => rfl | ⟨1, _⟩ => rfl | ⟨2, _⟩ => rfl

/-- Slot `o` of per-slot values cut out as an [8, 1, 4] strip. -/
theorem slot_strip (o : Nat) (ho : o < 16) (x : (⟨3, ![8, 16, 4]⟩ : Shape).Idx → α)
    (hs : (⟨3, ![8, 16, 4]⟩ : Shape).Slices ![0, o, 0] ⟨3, ![8, 1, 4]⟩) (t : Fin 8) (u : Fin 1) (h : Fin 4) :
    extractStridedSlice ⟨3, ![8, 1, 4]⟩ ![0, o, 0] x hs (ix3 t u h) = x (ix3 t (⟨o, ho⟩ : Fin 16) h) :=
  slice3_axis1_apply o x hs t u h ⟨o, ho⟩ (by have : u.val = 0 := by omega
                                              show o = o + u.val
                                              omega)

/-! ## Lane reductions of a tile, over the extended reals -/

/-- The maximum over the features of a tile, from the accumulator word. -/
theorem max_feats (v : FVec Ideal ⟨4, ![8, 16, 32, 4]⟩ .f32)
    (hr : (⟨4, ![8, 16, 32, 4]⟩ : Shape).Reduces [2] ⟨3, ![8, 16, 4]⟩) (hφ : FKind.Formats .f32)
    (hacc : (0xFF800000#32 : BitVec 32) = 0xFF800000#32) (t : Fin 8) (k : Fin 16) (h : Fin 4) :
    multiReduction .maximumf [2] ⟨3, ![8, 16, 4]⟩ v 0xFF800000#32 hr hφ hacc (ix3 t k h)
      = (Finset.univ : Finset (Fin 32)).fold max (Ideal.ofBits .f32 0xFF800000#32) fun f => v (ix4 t k f h) :=
  (Ideal.multiReduction_maximumf_single v 0xFF800000#32 hr hφ hacc _).trans
    (congrArg (fun g => Finset.fold max (Ideal.ofBits .f32 0xFF800000#32) g (Finset.univ : Finset (Fin 32)))
      (funext fun f => congrArg v (funext fun c => Fin.ext (by
        match c with | ⟨0, _⟩ => rfl | ⟨1, _⟩ => rfl | ⟨2, _⟩ => rfl | ⟨3, _⟩ => rfl))))

/-- The maximum over the slots of per-slot values [8, 16, 1, 4], from the accumulator word. -/
theorem max_slots (v : FVec Ideal ⟨4, ![8, 16, 1, 4]⟩ .f32)
    (hr : (⟨4, ![8, 16, 1, 4]⟩ : Shape).Reduces [1] ⟨3, ![8, 1, 4]⟩) (hφ : FKind.Formats .f32)
    (hacc : (0xFF800000#32 : BitVec 32) = 0xFF800000#32) (t : Fin 8) (u : Fin 1) (h : Fin 4) :
    multiReduction .maximumf [1] ⟨3, ![8, 1, 4]⟩ v 0xFF800000#32 hr hφ hacc (ix3 t u h)
      = (Finset.univ : Finset (Fin 16)).fold max (Ideal.ofBits .f32 0xFF800000#32) fun k => v (ix4 t k u h) :=
  (Ideal.multiReduction_maximumf_single v 0xFF800000#32 hr hφ hacc _).trans
    (congrArg (fun g => Finset.fold max (Ideal.ofBits .f32 0xFF800000#32) g (Finset.univ : Finset (Fin 16)))
      (funext fun k => congrArg v (funext fun c => Fin.ext (by
        match c with | ⟨0, _⟩ => rfl | ⟨1, _⟩ => rfl | ⟨2, _⟩ => rfl | ⟨3, _⟩ => rfl))))

/-- The sum over the features of a tile. -/
theorem sum_feats (v : FVec Ideal ⟨4, ![8, 16, 32, 4]⟩ .f32)
    (hr : (⟨4, ![8, 16, 32, 4]⟩ : Shape).Reduces [2] ⟨3, ![8, 16, 4]⟩) (hφ : FKind.Formats .f32)
    (hacc : (0x00000000#32 : BitVec 32) = 0x00000000#32) (t : Fin 8) (k : Fin 16) (h : Fin 4) :
    multiReduction .add [2] ⟨3, ![8, 16, 4]⟩ v 0x00000000#32 hr hφ hacc (ix3 t k h) = ∑ f : Fin 32, v (ix4 t k f h) :=
  (Ideal.multiReduction_add_single v 0x00000000#32 hr hφ hacc _).trans
    (Finset.sum_congr rfl fun f _ => congrArg v (funext fun c => Fin.ext (by
      match c with | ⟨0, _⟩ => rfl | ⟨1, _⟩ => rfl | ⟨2, _⟩ => rfl | ⟨3, _⟩ => rfl)))

/-- The sum over the slots of a tile. -/
theorem sum_slots (v : FVec Ideal ⟨4, ![8, 16, 32, 4]⟩ .f32)
    (hr : (⟨4, ![8, 16, 32, 4]⟩ : Shape).Reduces [1] ⟨3, ![8, 32, 4]⟩) (hφ : FKind.Formats .f32)
    (hacc : (0x00000000#32 : BitVec 32) = 0x00000000#32) (t : Fin 8) (f : Fin 32) (h : Fin 4) :
    multiReduction .add [1] ⟨3, ![8, 32, 4]⟩ v 0x00000000#32 hr hφ hacc (ix3 t f h) = ∑ k : Fin 16, v (ix4 t k f h) :=
  (Ideal.multiReduction_add_single v 0x00000000#32 hr hφ hacc _).trans
    (Finset.sum_congr rfl fun k _ => congrArg v (funext fun c => Fin.ext (by
      match c with | ⟨0, _⟩ => rfl | ⟨1, _⟩ => rfl | ⟨2, _⟩ => rfl | ⟨3, _⟩ => rfl)))

/-! ## The slot-zero mask -/

/-- The mask "slot is 0" as a float: 1 on slot 0 and 0 elsewhere. -/
theorem mask_slot0 (hi : (⟨4, ![1, 16, 1, 1]⟩ : Shape).Iotas .tc 32 [1]) (hlt : 1 < 32) (k : Fin 16) :
    (sitofp .f32 (extui 32 (cmpi .eq (iota .tc ⟨4, ![1, 16, 1, 1]⟩ 32 [1] hi) (broadcast ⟨4, ![1, 16, 1, 1]⟩ 0#32)) hlt)
        : FVec Ideal ⟨4, ![1, 16, 1, 1]⟩ .f32) (ix4 (0 : Fin 1) k (0 : Fin 1) (0 : Fin 1))
      = if k = 0 then (1 : EReal) else 0 := by
  rw [sitofp_apply, extui_apply]
  show FloatOps.sitofp (F := Ideal) .f32 (BitVec.setWidth 32 (IntOp.cmpi .eq
    (iota .tc ⟨4, ![1, 16, 1, 1]⟩ 32 [1] hi (ix4 (0 : Fin 1) k (0 : Fin 1) (0 : Fin 1))) 0#32)) = _
  rw [iota_single_apply]
  show ((((IntOp.cmpi .eq (BitVec.ofNat 32 k.val) 0#32).setWidth 32).toInt : ℝ) : EReal) = _
  have hk : (IntOp.cmpi .eq (BitVec.ofNat 32 k.val) 0#32).setWidth 32 = if k = 0 then 1#32 else 0#32 := by
    revert k; decide
  rw [hk]
  split <;> simp

end Cert.Attn.Lay

end
-- ==== Proof.KPay.lean ====
/-
  The kernel body's arithmetic read at an index of a tile. A grid point holds 8 positions; position t of the
  point has its own rows (scale, self term, scores, node outputs, graph weights), read off the loaded blocks, and the
  body's two stored values at (t, ·, ·) are the coefficient and the aggregate of those rows.
-/
import proofs.«111106_j18090402250757_2_alg».proof.Proof.Spec
import proofs.«111106_j18090402250757_2_alg».proof.Proof.Lay
import proofs.«111106_j18090402250757_2_alg».proof.Proof.Gen.KernelIdeal.Skeleton

noncomputable section

open scoped BigOperators

namespace Cert.Attn.Ker

open Cert.KernelIdeal Cert.KernelIdeal.Gen Idealize.ShloMosaic Idealize.ShloMosaic.ValueIdx

variable [Cert.KernelIdeal.Facts]

/-! ## Small readings -/

theorem exp_at {s : Shape} (v : FVec Ideal s .f32) (i : s.Idx) : exp v i = Ideal.exp (v i) := rfl
theorem absf_at {s : Shape} (v : FVec Ideal s .f32) (i : s.Idx) : absf v i = max (v i) (-(v i)) := rfl
theorem word_at (w : BitVec 32) : (Scalar.ofBits (F := Ideal) .f32 w) = Ideal.ofBits .f32 w := rfl

/-- Adding the self term through the 0/1 mask of slot 0 is adding it on slot 0 only. -/
theorem mask_add (k : Fin 16) (a s : EReal) :
    a + (if k = 0 then (1 : EReal) else 0) * s = if k = 0 then a + s else a := by
  split
  · rw [one_mul]
  · rw [zero_mul, add_zero]

/-- A sum over the sixteen slots written out from slot 0 upwards, as the body adds them. -/
theorem sum16 (g : Fin 16 → EReal) :
    ∑ k : Fin 16, g k = g ⟨0, by decide⟩ + g ⟨1, by decide⟩ + g ⟨2, by decide⟩ + g ⟨3, by decide⟩ + g ⟨4, by decide⟩ + g ⟨5, by decide⟩ + g ⟨6, by decide⟩ + g ⟨7, by decide⟩ + g ⟨8, by decide⟩ + g ⟨9, by decide⟩ + g ⟨10, by decide⟩ + g ⟨11, by decide⟩ + g ⟨12, by decide⟩ + g ⟨13, by decide⟩ + g ⟨14, by decide⟩ + g ⟨15, by decide⟩ := by
  simp only [Fin.sum_univ_castSucc, Fin.sum_univ_zero, zero_add]
  rfl

section
variable (x0 x1 : Vec Ideal S1x8x32x4 .f32) (x2 x3 : Vec Ideal S1x8x16x32x4 .f32) (x4 : Vec Ideal S1x8x16x32 .f32)

/-- The rows of position `t` of a grid point, read off the point's blocks. -/
abbrev rowBe (t : Fin 8) : Fin 32 → Fin 4 → EReal := fun f h => x0 (ix4 (0 : Fin 1) t f h)
abbrev rowSa (t : Fin 8) : Fin 32 → Fin 4 → EReal := fun f h => x1 (ix4 (0 : Fin 1) t f h)
abbrev rowAc (t : Fin 8) : Fin 16 → Fin 32 → Fin 4 → EReal := fun k f h => x2 (ix5 (0 : Fin 1) t k f h)
abbrev rowNo (t : Fin 8) : Fin 16 → Fin 32 → Fin 4 → EReal := fun k f h => x3 (ix5 (0 : Fin 1) t k f h)
abbrev rowGw (t : Fin 8) : Fin 16 → Fin 32 → EReal := fun k f => x4 (ix4 (0 : Fin 1) t k f)

/-- The stabilised exponentials of the tile: entry (t, k, f, h) is exp of position t's score minus its peak. -/
theorem expTile_at (t : Fin 8) (k : Fin 16) (f : Fin 32) (h : Fin 4) :
    k0_pay4 x0 x1 x2 (ix4 t k f h)
      = Ideal.exp (scaled (rowBe x0 t) (rowSa x1 t) (rowAc x2 t) k f h - peak (rowBe x0 t) (rowSa x1 t) (rowAc x2 t) h) := by
  unfold k0_pay4
  simp -index only [exp_at, subf_apply, mulf_apply, addf_apply, broadcast_apply, Lay.spread_pos, Lay.cast_pos_up,
    Lay.max_slots, Lay.cast_slot_up, Lay.max_feats, Lay.cast_block5, Lay.spread_mask, Lay.mask_slot0, Lay.spread_slots,
    Lay.cast_row_up, shapeCast_1abc_abc_apply, mask_add, word_at]
  rfl

/-- The coefficients of the tile before they are stored: entry (t, k, h). -/
theorem coefTile_at (t : Fin 8) (k : Fin 16) (h : Fin 4) :
    k0_pay5 (k0_pay3 x4) (k0_pay4 x0 x1 x2) (ix3 t k h)
      = coef (rowBe x0 t) (rowSa x1 t) (rowAc x2 t) (rowGw x4 t) k h := by
  unfold k0_pay5 k0_pay3
  simp -index only [divf_apply, Lay.sum_feats, mulf_apply, addf_apply, broadcast_apply, Lay.spread_heads, Lay.cast_gw_up,
    shapeCast_1abc_abc_apply, expTile_at, Lay.spread_total, absf_at, word_at,
    Lay.slot_strip 0 (by decide), Lay.slot_strip 1 (by decide), Lay.slot_strip 2 (by decide), Lay.slot_strip 3 (by decide), Lay.slot_strip 4 (by decide), Lay.slot_strip 5 (by decide), Lay.slot_strip 6 (by decide), Lay.slot_strip 7 (by decide), Lay.slot_strip 8 (by decide), Lay.slot_strip 9 (by decide), Lay.slot_strip 10 (by decide), Lay.slot_strip 11 (by decide), Lay.slot_strip 12 (by decide), Lay.slot_strip 13 (by decide), Lay.slot_strip 14 (by decide), Lay.slot_strip 15 (by decide)]
  rw [coef, sum16]
  rfl

/-- The coefficient block the body stores: entry (0, t, k, h) is the coefficient of position t's rows. -/
theorem coefBlock_at (u : Fin 1) (t : Fin 8) (k : Fin 16) (h : Fin 4) :
    k0_pay6 (k0_pay3 x4) (k0_pay4 x0 x1 x2) (ix4 u t k h)
      = coef (rowBe x0 t) (rowSa x1 t) (rowAc x2 t) (rowGw x4 t) k h := by
  unfold k0_pay6
  exact (shapeCast_abc_1abc_apply _ _ u t k h).trans (coefTile_at x0 x1 x2 x4 t k h)

/-- The aggregate block the body stores: entry (0, t, f, h) is the aggregate of position t's rows. -/
theorem mixBlock_at (u : Fin 1) (t : Fin 8) (f : Fin 32) (h : Fin 4) :
    k0_pay1 (k0_pay7 (k0_pay2 x3) (k0_pay3 x4) (k0_pay4 x0 x1 x2)) (ix4 u t f h)
      = mix (rowBe x0 t) (rowSa x1 t) (rowAc x2 t) (rowNo x3 t) (rowGw x4 t) f h := by
  unfold k0_pay1
  refine (shapeCast_abc_1abc_apply _ _ u t f h).trans ?_
  unfold k0_pay7 k0_pay2
  simp -index only [Lay.sum_slots, mulf_apply, Lay.cast_block5, Lay.spread_feats, Lay.cast_slot_up, coefTile_at]
  rfl

end

end Cert.Attn.Ker

end
-- ==== Proof.KArr.lean ====
/-
  The kernel's blocks-to-arrays leg and its run.

  @main reshapes its first four arguments (the trailing feature axis split into (feature, head)), runs ONE region over a
  [4, 256] grid, and reshapes the region's first result back. At grid point `t` every window holds the block of the 8
  positions (b, l) with b = t / 256 and l = (t % 256) * 8 + p, p < 8: all seven index maps send `t` to the block index
  (t / 256, t % 256, 0, …), so a block index's array index is, per axis, block index times block size plus the coordinate
  inside the block (`emb0` … `emb6`). The body's two stored blocks are, row by row, the coefficient and the aggregate of
  the rows it loaded (KPay.lean), and row `p` of the loaded blocks is the arrays' row at position (b, l); hence what
  point `t` writes back is block `t` of Spec.lean's coefficient / aggregate ARRAY of the arrays the region finds
  (`flushed6_eq`, `flushed5_eq`). The blocks tile the two output arrays (`cover6`, `cover5`), so after the region the
  arrays are those functions (`final6`, `final5`). The arrays the region finds are the reshaped arguments (`V_main_v0` …),
  the host line after the region reshapes the aggregate (`tail_main_v5`), and `run` reads the frame run at the two
  results and the five arguments.
-/
import proofs.«111106_j18090402250757_2_alg».proof.Proof.Spec
import proofs.«111106_j18090402250757_2_alg».proof.Proof.KPay
import proofs.«111106_j18090402250757_2_alg».proof.Proof.Gen.KernelIdeal.Frame
import Idealize.ShloMosaic.Lib.Pipeline.Value
import Idealize.ShloMosaic.Lib.ValueIdx
import Idealize.ShloMosaic.Lib.StableHlo.Run

noncomputable section

open scoped BigOperators

namespace Cert.Attn.Ker

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)
open Idealize.ShloMosaic.StableHlo

theorem hz4 : (![0, 0, 0, 0] : Fin 4 → Nat) = fun _ => 0 := funext fun a => by fin_cases a <;> rfl
theorem hz5 : (![0, 0, 0, 0, 0] : Fin 5 → Nat) = fun _ => 0 := funext fun a => by fin_cases a <;> rfl

/-! ## The index maps

Every window's index map sends grid point `t` (the points run row-major over the [4, 256] grid) to the block index
(t / 256, t % 256, 0, …): all seven windows move together, one block of 8 positions per point. -/

theorem stride0 : grid0.stride (0 : Fin 2) = 256 := by decide
theorem stride1 : grid0.stride (1 : Fin 2) = 1 := by decide
theorem t_lt (t : Fin cfg0.N) : t.val < 1024 := by
  have h : t.val < grid0.N := t.isLt
  rw [N_0] at h; exact h

theorem index0_0 (t : Fin cfg0.N) : win0_0.index t (0 : Fin 4) = t.val / 256 := by
  have ht := t_lt t
  show (BitVec.ofNat 32 (t.val / grid0.stride (0 : Fin 2) % 4)).toNat = _
  rw [stride0, BitVec.toNat_ofNat]; omega
theorem index0_1 (t : Fin cfg0.N) : win0_0.index t (1 : Fin 4) = t.val % 256 := by
  have ht := t_lt t
  show (BitVec.ofNat 32 (t.val / grid0.stride (1 : Fin 2) % 256)).toNat = _
  rw [stride1, BitVec.toNat_ofNat]; omega
theorem index0_2 (t : Fin cfg0.N) : win0_0.index t (2 : Fin 4) = 0 := rfl
theorem index0_3 (t : Fin cfg0.N) : win0_0.index t (3 : Fin 4) = 0 := rfl

theorem index1_0 (t : Fin cfg0.N) : win0_1.index t (0 : Fin 4) = t.val / 256 := by
  have ht := t_lt t
  show (BitVec.ofNat 32 (t.val / grid0.stride (0 : Fin 2) % 4)).toNat = _
  rw [stride0, BitVec.toNat_ofNat]; omega
theorem index1_1 (t : Fin cfg0.N) : win0_1.index t (1 : Fin 4) = t.val % 256 := by
  have ht := t_lt t
  show (BitVec.ofNat 32 (t.val / grid0.stride (1 : Fin 2) % 256)).toNat = _
  rw [stride1, BitVec.toNat_ofNat]; omega
theorem index1_2 (t : Fin cfg0.N) : win0_1.index t (2 : Fin 4) = 0 := rfl
theorem index1_3 (t : Fin cfg0.N) : win0_1.index t (3 : Fin 4) = 0 := rfl

theorem index2_0 (t : Fin cfg0.N) : win0_2.index t (0 : Fin 5) = t.val / 256 := by
  have ht := t_lt t
  show (BitVec.ofNat 32 (t.val / grid0.stride (0 : Fin 2) % 4)).toNat = _
  rw [stride0, BitVec.toNat_ofNat]; omega
theorem index2_1 (t : Fin cfg0.N) : win0_2.index t (1 : Fin 5) = t.val % 256 := by
  have ht := t_lt t
  show (BitVec.ofNat 32 (t.val / grid0.stride (1 : Fin 2) % 256)).toNat = _
  rw [stride1, BitVec.toNat_ofNat]; omega
theorem index2_2 (t : Fin cfg0.N) : win0_2.index t (2 : Fin 5) = 0 := rfl
theorem index2_3 (t : Fin cfg0.N) : win0_2.index t (3 : Fin 5) = 0 := rfl
theorem index2_4 (t : Fin cfg0.N) : win0_2.index t (4 : Fin 5) = 0 := rfl

theorem index3_0 (t : Fin cfg0.N) : win0_3.index t (0 : Fin 5) = t.val / 256 := by
  have ht := t_lt t
  show (BitVec.ofNat 32 (t.val / grid0.stride (0 : Fin 2) % 4)).toNat = _
  rw [stride0, BitVec.toNat_ofNat]; omega
theorem index3_1 (t : Fin cfg0.N) : win0_3.index t (1 : Fin 5) = t.val % 256 := by
  have ht := t_lt t
  show (BitVec.ofNat 32 (t.val / grid0.stride (1 : Fin 2) % 256)).toNat = _
  rw [stride1, BitVec.toNat_ofNat]; omega
theorem index3_2 (t : Fin cfg0.N) : win0_3.index t (2 : Fin 5) = 0 := rfl
theorem index3_3 (t : Fin cfg0.N) : win0_3.index t (3 : Fin 5) = 0 := rfl
theorem index3_4 (t : Fin cfg0.N) : win0_3.index t (4 : Fin 5) = 0 := rfl

theorem index4_0 (t : Fin cfg0.N) : win0_4.index t (0 : Fin 4) = t.val / 256 := by
  have ht := t_lt t
  show (BitVec.ofNat 32 (t.val / grid0.stride (0 : Fin 2) % 4)).toNat = _
  rw [stride0, BitVec.toNat_ofNat]; omega
theorem index4_1 (t : Fin cfg0.N) : win0_4.index t (1 : Fin 4) = t.val % 256 := by
  have ht := t_lt t
  show (BitVec.ofNat 32 (t.val / grid0.stride (1 : Fin 2) % 256)).toNat = _
  rw [stride1, BitVec.toNat_ofNat]; omega
theorem index4_2 (t : Fin cfg0.N) : win0_4.index t (2 : Fin 4) = 0 := rfl
theorem index4_3 (t : Fin cfg0.N) : win0_4.index t (3 : Fin 4) = 0 := rfl

theorem index5_0 (t : Fin cfg0.N) : win0_5.index t (0 : Fin 4) = t.val / 256 := by
  have ht := t_lt t
  show (BitVec.ofNat 32 (t.val / grid0.stride (0 : Fin 2) % 4)).toNat = _
  rw [stride0, BitVec.toNat_ofNat]; omega
theorem index5_1 (t : Fin cfg0.N) : win0_5.index t (1 : Fin 4) = t.val % 256 := by
  have ht := t_lt t
  show (BitVec.ofNat 32 (t.val / grid0.stride (1 : Fin 2) % 256)).toNat = _
  rw [stride1, BitVec.toNat_ofNat]; omega
theorem index5_2 (t : Fin cfg0.N) : win0_5.index t (2 : Fin 4) = 0 := rfl
theorem index5_3 (t : Fin cfg0.N) : win0_5.index t (3 : Fin 4) = 0 := rfl

theorem index6_0 (t : Fin cfg0.N) : win0_6.index t (0 : Fin 4) = t.val / 256 := by
  have ht := t_lt t
  show (BitVec.ofNat 32 (t.val / grid0.stride (0 : Fin 2) % 4)).toNat = _
  rw [stride0, BitVec.toNat_ofNat]; omega
theorem index6_1 (t : Fin cfg0.N) : win0_6.index t (1 : Fin 4) = t.val % 256 := by
  have ht := t_lt t
  show (BitVec.ofNat 32 (t.val / grid0.stride (1 : Fin 2) % 256)).toNat = _
  rw [stride1, BitVec.toNat_ofNat]; omega
theorem index6_2 (t : Fin cfg0.N) : win0_6.index t (2 : Fin 4) = 0 := rfl
theorem index6_3 (t : Fin cfg0.N) : win0_6.index t (3 : Fin 4) = 0 := rfl

/-- Every block (b, l / 8) is some point's. -/
theorem idx_onto (q0 : Fin 4) (q1 : Fin 256) : ∃ t : Fin cfg0.N, t.val / 256 = q0.val ∧ t.val % 256 = q1.val := by
  have h0 := q0.isLt
  have h1 := q1.isLt
  refine ⟨⟨q0.val * 256 + q1.val, ?_⟩, ?_, ?_⟩
  · show q0.val * 256 + q1.val < grid0.N
    rw [N_0]; omega
  · show (q0.val * 256 + q1.val) / 256 = q0.val; omega
  · show (q0.val * 256 + q1.val) % 256 = q1.val; omega

/-! ## A block's element in its array

Point `t` holds the 8 positions (b, l) with b = t / 256 and l = (t % 256) * 8 + p, p < 8: a block index's array
index is, per axis, block index times block size plus the coordinate inside the block. -/

/-- The batch coordinate of point `t`'s positions. -/
def bOf (t : Fin cfg0.N) : Fin 4 := ⟨t.val / 256, by have := t_lt t; omega⟩
/-- The position, along the sequence, of row `p` of point `t`. -/
def lOf (t : Fin cfg0.N) (p : Fin 8) : Fin 2048 := ⟨t.val % 256 * 8 + p.val, by have := p.isLt; omega⟩

theorem emb0 (t : Fin cfg0.N) (u : Fin 1) (p : Fin 8) (f : Fin 32) (h : Fin 4) :
    ((cfg0.win 0).blk t).view.emb (ix4 u p f h) = ix4 (bOf t) (lOf t p) f h := by
  funext a; apply Fin.ext
  match a with
  | ⟨0, _⟩ => show win0_0.index t (0 : Fin 4) * 1 + 1 * u.val = t.val / 256; rw [index0_0]; have := u.isLt; omega
  | ⟨1, _⟩ => show win0_0.index t (1 : Fin 4) * 8 + 1 * p.val = t.val % 256 * 8 + p.val; rw [index0_1]; omega
  | ⟨2, _⟩ => show win0_0.index t (2 : Fin 4) * 32 + 1 * f.val = f.val; rw [index0_2]; omega
  | ⟨3, _⟩ => show win0_0.index t (3 : Fin 4) * 4 + 1 * h.val = h.val; rw [index0_3]; omega
theorem emb1 (t : Fin cfg0.N) (u : Fin 1) (p : Fin 8) (f : Fin 32) (h : Fin 4) :
    ((cfg0.win 1).blk t).view.emb (ix4 u p f h) = ix4 (bOf t) (lOf t p) f h := by
  funext a; apply Fin.ext
  match a with
  | ⟨0, _⟩ => show win0_1.index t (0 : Fin 4) * 1 + 1 * u.val = t.val / 256; rw [index1_0]; have := u.isLt; omega
  | ⟨1, _⟩ => show win0_1.index t (1 : Fin 4) * 8 + 1 * p.val = t.val % 256 * 8 + p.val; rw [index1_1]; omega
  | ⟨2, _⟩ => show win0_1.index t (2 : Fin 4) * 32 + 1 * f.val = f.val; rw [index1_2]; omega
  | ⟨3, _⟩ => show win0_1.index t (3 : Fin 4) * 4 + 1 * h.val = h.val; rw [index1_3]; omega
theorem emb2 (t : Fin cfg0.N) (u : Fin 1) (p : Fin 8) (k : Fin 16) (f : Fin 32) (h : Fin 4) :
    ((cfg0.win 2).blk t).view.emb (ix5 u p k f h) = ix5 (bOf t) (lOf t p) k f h := by
  funext a; apply Fin.ext
  match a with
  | ⟨0, _⟩ => show win0_2.index t (0 : Fin 5) * 1 + 1 * u.val = t.val / 256; rw [index2_0]; have := u.isLt; omega
  | ⟨1, _⟩ => show win0_2.index t (1 : Fin 5) * 8 + 1 * p.val = t.val % 256 * 8 + p.val; rw [index2_1]; omega
  | ⟨2, _⟩ => show win0_2.index t (2 : Fin 5) * 16 + 1 * k.val = k.val; rw [index2_2]; omega
  | ⟨3, _⟩ => show win0_2.index t (3 : Fin 5) * 32 + 1 * f.val = f.val; rw [index2_3]; omega
  | ⟨4, _⟩ => show win0_2.index t (4 : Fin 5) * 4 + 1 * h.val = h.val; rw [index2_4]; omega
theorem emb3 (t : Fin cfg0.N) (u : Fin 1) (p : Fin 8) (k : Fin 16) (f : Fin 32) (h : Fin 4) :
    ((cfg0.win 3).blk t).view.emb (ix5 u p k f h) = ix5 (bOf t) (lOf t p) k f h := by
  funext a; apply Fin.ext
  match a with
  | ⟨0, _⟩ => show win0_3.index t (0 : Fin 5) * 1 + 1 * u.val = t.val / 256; rw [index3_0]; have := u.isLt; omega
  | ⟨1, _⟩ => show win0_3.index t (1 : Fin 5) * 8 + 1 * p.val = t.val % 256 * 8 + p.val; rw [index3_1]; omega
  | ⟨2, _⟩ => show win0_3.index t (2 : Fin 5) * 16 + 1 * k.val = k.val; rw [index3_2]; omega
  | ⟨3, _⟩ => show win0_3.index t (3 : Fin 5) * 32 + 1 * f.val = f.val; rw [index3_3]; omega
  | ⟨4, _⟩ => show win0_3.index t (4 : Fin 5) * 4 + 1 * h.val = h.val; rw [index3_4]; omega
theorem emb4 (t : Fin cfg0.N) (u : Fin 1) (p : Fin 8) (k : Fin 16) (f : Fin 32) :
    ((cfg0.win 4).blk t).view.emb (ix4 u p k f) = ix4 (bOf t) (lOf t p) k f := by
  funext a; apply Fin.ext
  match a with
  | ⟨0, _⟩ => show win0_4.index t (0 : Fin 4) * 1 + 1 * u.val = t.val / 256; rw [index4_0]; have := u.isLt; omega
  | ⟨1, _⟩ => show win0_4.index t (1 : Fin 4) * 8 + 1 * p.val = t.val % 256 * 8 + p.val; rw [index4_1]; omega
  | ⟨2, _⟩ => show win0_4.index t (2 : Fin 4) * 16 + 1 * k.val = k.val; rw [index4_2]; omega
  | ⟨3, _⟩ => show win0_4.index t (3 : Fin 4) * 32 + 1 * f.val = f.val; rw [index4_3]; omega
theorem emb5 (t : Fin cfg0.N) (u : Fin 1) (p : Fin 8) (f : Fin 32) (h : Fin 4) :
    ((cfg0.win 5).blk t).view.emb (ix4 u p f h) = ix4 (bOf t) (lOf t p) f h := by
  funext a; apply Fin.ext
  match a with
  | ⟨0, _⟩ => show win0_5.index t (0 : Fin 4) * 1 + 1 * u.val = t.val / 256; rw [index5_0]; have := u.isLt; omega
  | ⟨1, _⟩ => show win0_5.index t (1 : Fin 4) * 8 + 1 * p.val = t.val % 256 * 8 + p.val; rw [index5_1]; omega
  | ⟨2, _⟩ => show win0_5.index t (2 : Fin 4) * 32 + 1 * f.val = f.val; rw [index5_2]; omega
  | ⟨3, _⟩ => show win0_5.index t (3 : Fin 4) * 4 + 1 * h.val = h.val; rw [index5_3]; omega
theorem emb6 (t : Fin cfg0.N) (u : Fin 1) (p : Fin 8) (k : Fin 16) (h : Fin 4) :
    ((cfg0.win 6).blk t).view.emb (ix4 u p k h) = ix4 (bOf t) (lOf t p) k h := by
  funext a; apply Fin.ext
  match a with
  | ⟨0, _⟩ => show win0_6.index t (0 : Fin 4) * 1 + 1 * u.val = t.val / 256; rw [index6_0]; have := u.isLt; omega
  | ⟨1, _⟩ => show win0_6.index t (1 : Fin 4) * 8 + 1 * p.val = t.val % 256 * 8 + p.val; rw [index6_1]; omega
  | ⟨2, _⟩ => show win0_6.index t (2 : Fin 4) * 16 + 1 * k.val = k.val; rw [index6_2]; omega
  | ⟨3, _⟩ => show win0_6.index t (3 : Fin 4) * 4 + 1 * h.val = h.val; rw [index6_3]; omega

/-! ## What a point writes back -/

section Rows

variable (A0 A1 : S4x2048x32x4.Idx → EReal) (A2 A3 : S4x2048x16x32x4.Idx → EReal) (A4 : S4x2048x16x32.Idx → EReal)
  (x0 x1 : Vec Ideal S1x8x32x4 .f32) (x2 x3 : Vec Ideal S1x8x16x32x4 .f32) (x4 : Vec Ideal S1x8x16x32 .f32)
  (b : Fin 4) (l : Fin 2048) (p : Fin 8)

/-- Blocks whose row `p` is the arrays' row at position (b, l) store, at row `p`, the coefficient array's entries
    of that position. -/
theorem coef_of_rows
    (h0 : ∀ f h, x0 (ix4 (0 : Fin 1) p f h) = A0 (ix4 b l f h))
    (h1 : ∀ f h, x1 (ix4 (0 : Fin 1) p f h) = A1 (ix4 b l f h))
    (h2 : ∀ k f h, x2 (ix5 (0 : Fin 1) p k f h) = A2 (ix5 b l k f h))
    (h4 : ∀ k f, x4 (ix4 (0 : Fin 1) p k f) = A4 (ix4 b l k f))
    (u : Fin 1) (k : Fin 16) (h : Fin 4) :
    k0_pay6 (k0_pay3 x4) (k0_pay4 x0 x1 x2) (ix4 u p k h) = Cert.Attn.coefArr A0 A1 A2 A4 (ix4 b l k h) := by
  have e0 : Cert.Attn.Ker.rowBe x0 p = fun f h => A0 (ix4 b l f h) := funext fun f => funext fun h => h0 f h
  have e1 : Cert.Attn.Ker.rowSa x1 p = fun f h => A1 (ix4 b l f h) := funext fun f => funext fun h => h1 f h
  have e2 : Cert.Attn.Ker.rowAc x2 p = fun k f h => A2 (ix5 b l k f h) :=
    funext fun k => funext fun f => funext fun h => h2 k f h
  have e4 : Cert.Attn.Ker.rowGw x4 p = fun k f => A4 (ix4 b l k f) := funext fun k => funext fun f => h4 k f
  rw [Cert.Attn.Ker.coefBlock_at, e0, e1, e2, e4]
  rfl

/-- The same for the aggregate. -/
theorem mix_of_rows
    (h0 : ∀ f h, x0 (ix4 (0 : Fin 1) p f h) = A0 (ix4 b l f h))
    (h1 : ∀ f h, x1 (ix4 (0 : Fin 1) p f h) = A1 (ix4 b l f h))
    (h2 : ∀ k f h, x2 (ix5 (0 : Fin 1) p k f h) = A2 (ix5 b l k f h))
    (h3 : ∀ k f h, x3 (ix5 (0 : Fin 1) p k f h) = A3 (ix5 b l k f h))
    (h4 : ∀ k f, x4 (ix4 (0 : Fin 1) p k f) = A4 (ix4 b l k f))
    (u : Fin 1) (f : Fin 32) (h : Fin 4) :
    k0_pay1 (k0_pay7 (k0_pay2 x3) (k0_pay3 x4) (k0_pay4 x0 x1 x2)) (ix4 u p f h)
      = Cert.Attn.mixArr A0 A1 A2 A3 A4 (ix4 b l f h) := by
  have e0 : Cert.Attn.Ker.rowBe x0 p = fun f h => A0 (ix4 b l f h) := funext fun f => funext fun h => h0 f h
  have e1 : Cert.Attn.Ker.rowSa x1 p = fun f h => A1 (ix4 b l f h) := funext fun f => funext fun h => h1 f h
  have e2 : Cert.Attn.Ker.rowAc x2 p = fun k f h => A2 (ix5 b l k f h) :=
    funext fun k => funext fun f => funext fun h => h2 k f h
  have e3 : Cert.Attn.Ker.rowNo x3 p = fun k f h => A3 (ix5 b l k f h) :=
    funext fun k => funext fun f => funext fun h => h3 k f h
  have e4 : Cert.Attn.Ker.rowGw x4 p = fun k f => A4 (ix4 b l k f) := funext fun k => funext fun f => h4 k f
  rw [Cert.Attn.Ker.mixBlock_at, e0, e1, e2, e3, e4]
  rfl

end Rows

/-- A window's block at a point is its array read through the block's embedding. -/
theorem iblk0_apply (c : Dev nD) (t : Fin cfg0.N) (y : S1x8x32x4.Idx) :
    iblk m c 0 t y = V m c main_v0 (((cfg0.win 0).blk t).view.emb y) := rfl
theorem iblk1_apply (c : Dev nD) (t : Fin cfg0.N) (y : S1x8x32x4.Idx) :
    iblk m c 1 t y = V m c main_v1 (((cfg0.win 1).blk t).view.emb y) := rfl
theorem iblk2_apply (c : Dev nD) (t : Fin cfg0.N) (y : S1x8x16x32x4.Idx) :
    iblk m c 2 t y = V m c main_v2 (((cfg0.win 2).blk t).view.emb y) := rfl
theorem iblk3_apply (c : Dev nD) (t : Fin cfg0.N) (y : S1x8x16x32x4.Idx) :
    iblk m c 3 t y = V m c main_v3 (((cfg0.win 3).blk t).view.emb y) := rfl
theorem iblk4_apply (c : Dev nD) (t : Fin cfg0.N) (y : S1x8x16x32.Idx) :
    iblk m c 4 t y = V m c main_arg4 (((cfg0.win 4).blk t).view.emb y) := rfl

/-- WHAT POINT `t` WRITES BACK to the coefficient array is block `t` of the coefficient array of the arrays the region
    finds. -/
theorem flushed6_eq (c : Dev nD) (t : Fin cfg0.N) :
    (dats m 0 c).flushed 6 t = ((cfg0.win 6).blk t).view.read (Elt Ideal)
      (Cert.Attn.coefArr (V m c main_v0) (V m c main_v1) (V m c main_v2) (V m c main_arg4)) := by
  show (cfg0.win 6).cut (grid0.coords t) ((dats m 0 c).after 6 t) = _
  rw [after0_6]
  unfold out0_6
  rw [View.canon_unit_zero hz4]
  simp only [View.ld_unit_zero (S := S1x8x32x4) hz4, View.ld_unit_zero (S := S1x8x16x32x4) hz5,
    View.ld_unit_zero (S := S1x8x16x32) hz4]
  refine funext fun (j : S1x8x16x4.Idx) => ?_
  obtain ⟨u, p, k, h, rfl⟩ : ∃ u p k h, j = ix4 u p k h := ⟨j 0, j 1, j 2, j 3, eq_ix4 j⟩
  show k0_pay6 (k0_pay3 (iblk m c 4 t)) (k0_pay4 (iblk m c 0 t) (iblk m c 1 t) (iblk m c 2 t)) (ix4 u p k h)
    = Cert.Attn.coefArr (V m c main_v0) (V m c main_v1) (V m c main_v2) (V m c main_arg4)
        (((cfg0.win 6).blk t).view.emb (ix4 u p k h))
  rw [emb6 t u p k h]
  exact coef_of_rows _ _ _ _ _ _ _ _ (bOf t) (lOf t p) p
    (fun f h => (iblk0_apply m c t _).trans (congrArg (V m c main_v0) (emb0 t 0 p f h)))
    (fun f h => (iblk1_apply m c t _).trans (congrArg (V m c main_v1) (emb1 t 0 p f h)))
    (fun k f h => (iblk2_apply m c t _).trans (congrArg (V m c main_v2) (emb2 t 0 p k f h)))
    (fun k f => (iblk4_apply m c t _).trans (congrArg (V m c main_arg4) (emb4 t 0 p k f)))
    u k h

/-- WHAT POINT `t` WRITES BACK to the aggregate array is block `t` of the aggregate array of the arrays the region
    finds. -/
theorem flushed5_eq (c : Dev nD) (t : Fin cfg0.N) :
    (dats m 0 c).flushed 5 t = ((cfg0.win 5).blk t).view.read (Elt Ideal)
      (Cert.Attn.mixArr (V m c main_v0) (V m c main_v1) (V m c main_v2) (V m c main_v3) (V m c main_arg4)) := by
  show (cfg0.win 5).cut (grid0.coords t) ((dats m 0 c).after 5 t) = _
  rw [after0_5]
  unfold out0_5
  rw [View.canon_unit_zero hz4]
  simp only [View.ld_unit_zero (S := S1x8x32x4) hz4, View.ld_unit_zero (S := S1x8x16x32x4) hz5,
    View.ld_unit_zero (S := S1x8x16x32) hz4]
  refine funext fun (j : S1x8x32x4.Idx) => ?_
  obtain ⟨u, p, f, h, rfl⟩ : ∃ u p f h, j = ix4 u p f h := ⟨j 0, j 1, j 2, j 3, eq_ix4 j⟩
  show k0_pay1 (k0_pay7 (k0_pay2 (iblk m c 3 t)) (k0_pay3 (iblk m c 4 t)) (k0_pay4 (iblk m c 0 t) (iblk m c 1 t) (iblk m c 2 t)))
      (ix4 u p f h)
    = Cert.Attn.mixArr (V m c main_v0) (V m c main_v1) (V m c main_v2) (V m c main_v3) (V m c main_arg4)
        (((cfg0.win 5).blk t).view.emb (ix4 u p f h))
  rw [emb5 t u p f h]
  exact mix_of_rows _ _ _ _ _ _ _ _ _ _ (bOf t) (lOf t p) p
    (fun f h => (iblk0_apply m c t _).trans (congrArg (V m c main_v0) (emb0 t 0 p f h)))
    (fun f h => (iblk1_apply m c t _).trans (congrArg (V m c main_v1) (emb1 t 0 p f h)))
    (fun k f h => (iblk2_apply m c t _).trans (congrArg (V m c main_v2) (emb2 t 0 p k f h)))
    (fun k f h => (iblk3_apply m c t _).trans (congrArg (V m c main_v3) (emb3 t 0 p k f h)))
    (fun k f => (iblk4_apply m c t _).trans (congrArg (V m c main_arg4) (emb4 t 0 p k f)))
    u f h

/-! ## The blocks tile the arrays -/

/-- Every index of the coefficient array is in the block of the point holding its position. -/
theorem cover6 (i : S4x2048x16x4.Idx) :
    ∃ t : Fin cfg0.N, (cfg0.win 6).flush t = true ∧ i ∈ ((cfg0.win 6).blk t).view.set := by
  obtain ⟨b, l, k, h, rfl⟩ : ∃ (b : Fin 4) (l : Fin 2048) (k : Fin 16) (h : Fin 4), i = ix4 b l k h :=
    ⟨i 0, i 1, i 2, i 3, eq_ix4 i⟩
  have hl := l.isLt
  obtain ⟨t, ht0, ht1⟩ := idx_onto b ⟨l.val / 8, by omega⟩
  have ht1' : t.val % 256 = l.val / 8 := ht1
  refine ⟨t, flush0_6 t, ?_⟩
  have hb : bOf t = b := Fin.ext ht0
  have hl' : lOf t ⟨l.val % 8, Nat.mod_lt _ (by decide)⟩ = l :=
    Fin.ext (by show t.val % 256 * 8 + l.val % 8 = l.val; omega)
  have hmem := ((cfg0.win 6).blk t).view.emb_mem_set
    (ix4 (0 : Fin 1) (⟨l.val % 8, Nat.mod_lt _ (by decide)⟩ : Fin 8) k h)
  rw [emb6, hb, hl'] at hmem
  exact hmem

/-- Every index of the aggregate array is in the block of the point holding its position. -/
theorem cover5 (i : S4x2048x32x4.Idx) :
    ∃ t : Fin cfg0.N, (cfg0.win 5).flush t = true ∧ i ∈ ((cfg0.win 5).blk t).view.set := by
  obtain ⟨b, l, f, h, rfl⟩ : ∃ (b : Fin 4) (l : Fin 2048) (f : Fin 32) (h : Fin 4), i = ix4 b l f h :=
    ⟨i 0, i 1, i 2, i 3, eq_ix4 i⟩
  have hl := l.isLt
  obtain ⟨t, ht0, ht1⟩ := idx_onto b ⟨l.val / 8, by omega⟩
  have ht1' : t.val % 256 = l.val / 8 := ht1
  refine ⟨t, flush0_5 t, ?_⟩
  have hb : bOf t = b := Fin.ext ht0
  have hl' : lOf t ⟨l.val % 8, Nat.mod_lt _ (by decide)⟩ = l :=
    Fin.ext (by show t.val % 256 * 8 + l.val % 8 = l.val; omega)
  have hmem := ((cfg0.win 5).blk t).view.emb_mem_set
    (ix4 (0 : Fin 1) (⟨l.val % 8, Nat.mod_lt _ (by decide)⟩ : Fin 8) f h)
  rw [emb5, hb, hl'] at hmem
  exact hmem

/-! ## The arrays after the region -/

/-- The coefficient array after the region. -/
theorem final6 (c : Dev nD) : (dats m 0 c).arrAt 6 cfg0.N
    = Cert.Attn.coefArr (V m c main_v0) (V m c main_v1) (V m c main_v2) (V m c main_arg4) :=
  (dats m 0 c).arrAt_eq_of_cover 6 _ (fun t _ => flushed6_eq m c t) cover6

/-- The aggregate array after the region. -/
theorem final5 (c : Dev nD) : (dats m 0 c).arrAt 5 cfg0.N
    = Cert.Attn.mixArr (V m c main_v0) (V m c main_v1) (V m c main_v2) (V m c main_v3) (V m c main_arg4) :=
  (dats m 0 c).arrAt_eq_of_cover 5 _ (fun t _ => flushed5_eq m c t) cover5

/-! ## The arrays the region finds: the four host reshapes -/

theorem V_main_v0 (c : Dev nD) : V m c main_v0
    = shapeCast _ (m ((c.tc : Thread nD τ).loc main_arg0)) shapeCasts_S4x2048x128_S4x2048x32x4 := by
  show StableHlo.after hostOps0 (fun b => m (c, b)) (Proc.devRef .tc main_v0) = _
  after_results
  rfl
theorem V_main_v1 (c : Dev nD) : V m c main_v1
    = shapeCast _ (m ((c.tc : Thread nD τ).loc main_arg1)) shapeCasts_S4x2048x128_S4x2048x32x4 := by
  show StableHlo.after hostOps0 (fun b => m (c, b)) (Proc.devRef .tc main_v1) = _
  after_results
  rfl
theorem V_main_v2 (c : Dev nD) : V m c main_v2
    = shapeCast _ (m ((c.tc : Thread nD τ).loc main_arg2)) shapeCasts_S4x2048x16x128_S4x2048x16x32x4 := by
  show StableHlo.after hostOps0 (fun b => m (c, b)) (Proc.devRef .tc main_v2) = _
  after_results
  rfl
theorem V_main_v3 (c : Dev nD) : V m c main_v3
    = shapeCast _ (m ((c.tc : Thread nD τ).loc main_arg3)) shapeCasts_S4x2048x16x128_S4x2048x16x32x4 := by
  show StableHlo.after hostOps0 (fun b => m (c, b)) (Proc.devRef .tc main_v3) = _
  after_results
  rfl

/-! ## The host line after the region, and the run -/

/-- The host reshape after the region leaves the aggregate array, reshaped, in its result buffer. -/
theorem tail_main_v5 (c : Dev nD) (G : S4x2048x32x4.Idx → EReal) (hG : (dats m 0 c).arrAt 5 cfg0.N = G) :
    (Pipeline.afterTail₀ cfgs (dats m) 0 (V0 m) [hostOps1] c main_v5 : S4x2048x128.Idx → EReal)
      = shapeCast _ G Facts₀.shapeCasts_S4x2048x32x4_S4x2048x128 := by
  unfold Pipeline.afterTail₀
  show StableHlo.after hostOps1 _ (Proc.devRef .tc main_v5) = _
  after_results
  have e : Pipeline.withArrays (cfgs 0).spec c (V0 m c) (fun w => (dats m 0 c).arrAt w (cfgs 0).N)
      (Proc.tc.devRef main_v4_0) = G :=
    (Pipeline.withArrays_arr spec0 launch0.win.arr_inj c _ _ 5).trans hG
  rw [e]
  rfl

section Run

variable [Cert.KernelIdeal.Facts]

/-- THE KERNEL'S RUN, READ: every weakly fair execution of @main terminates with the first result the aggregate array
    of the reshaped arguments, its two trailing axes rejoined, the second result their coefficient array, and the five
    arguments unchanged. -/
theorem run (m : (ℓ : Loc nD τ sig) → Buf (Elt Ideal) ℓ) (ρ : Dev nD → PrngReg) :
    θ_run (Cert.KernelIdeal.defs (F := Ideal)) (onTc (τ := τ) (main (F := Ideal))) ⟨m, fun _ => 0, ρ⟩ fun r => ∀ c : Dev nD,
      r.2.mem ((c.tc : Thread nD τ).loc main_v5)
        = shapeCast _ (Cert.Attn.mixArr
            (shapeCast _ (m ((c.tc : Thread nD τ).loc main_arg0)) Facts₀.shapeCasts_S4x2048x128_S4x2048x32x4)
            (shapeCast _ (m ((c.tc : Thread nD τ).loc main_arg1)) Facts₀.shapeCasts_S4x2048x128_S4x2048x32x4)
            (shapeCast _ (m ((c.tc : Thread nD τ).loc main_arg2)) Facts₀.shapeCasts_S4x2048x16x128_S4x2048x16x32x4)
            (shapeCast _ (m ((c.tc : Thread nD τ).loc main_arg3)) Facts₀.shapeCasts_S4x2048x16x128_S4x2048x16x32x4)
            (m ((c.tc : Thread nD τ).loc main_arg4))) Facts₀.shapeCasts_S4x2048x32x4_S4x2048x128
      ∧ r.2.mem ((c.tc : Thread nD τ).loc main_v4_1)
        = Cert.Attn.coefArr
            (shapeCast _ (m ((c.tc : Thread nD τ).loc main_arg0)) Facts₀.shapeCasts_S4x2048x128_S4x2048x32x4)
            (shapeCast _ (m ((c.tc : Thread nD τ).loc main_arg1)) Facts₀.shapeCasts_S4x2048x128_S4x2048x32x4)
            (shapeCast _ (m ((c.tc : Thread nD τ).loc main_arg2)) Facts₀.shapeCasts_S4x2048x16x128_S4x2048x16x32x4)
            (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c =>
    ⟨((h c).2 main_v5 (Pipeline.mem_restRefs_of main_v5 (by decide) (by decide))).trans
        ((tail_main_v5 m c _ (final5 m c)).trans
          (by rw [V_main_v0, V_main_v1, V_main_v2, V_main_v3, V_main_arg4])),
      ((h c).1 6).trans ((final6 m c).trans (by rw [V_main_v0, V_main_v1, V_main_v2, V_main_arg4])),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c)))⟩)
    (run_main m ρ)

end Run

end Cert.Attn.Ker
end
-- ==== Proof.lean ====
/-
  The kernel computes, for every position (b, l) of a [4, 2048] grid and every head h, a softmax-like weighting of
  16 neighbour slots and the node outputs mixed by it; the reference computes the same with jnp.

  Both programs first split the trailing axis of four arguments into (feature, head) by the same reshape. On the
  reshaped arrays the mathematics is Spec.lean's: scores scaled by beta + ε with the self term joining slot 0, the
  peak over slots and features, masses Σ_f gw · exp(score − peak), coefficients mass / (Σ_k |mass| + ε) and the
  aggregate Σ_k no · coef. The two programs differ in how they spell it, and every difference is an identity of the
  extended reals that needs no finiteness:
    * the kernel adds the self term through a 0/1 mask (a + 1·s = a + s, a + 0·s = a), the reference by a scatter
      that lands exactly once on each element of slot 0;
    * the kernel takes the maximum over features and then over slots, the reference over both axes at once: the
      same least upper bound;
    * the kernel adds the sixteen absolute masses one after the other, the reference sums them from zero;
    * lane reductions and host reductions are the same finite sums.
  KPay.lean reads the kernel body's two stored blocks at an index; KArr.lean assembles the blocks of the 4 × 256 grid
  points into the two result arrays and follows the final reshape; RefSide.lean reads the reference's stages at an
  index. Here the reference's two results are stated over the reshaped arguments and the five claims are assembled.
-/
import proofs.«111106_j18090402250757_2_alg».proof.Defs
import proofs.«111106_j18090402250757_2_alg».proof.Proof.Gen.Kernel
import proofs.«111106_j18090402250757_2_alg».proof.Proof.Gen.Kernel.Skeleton
import proofs.«111106_j18090402250757_2_alg».proof.Proof.Gen.Kernel.Launch
import proofs.«111106_j18090402250757_2_alg».proof.Proof.Gen.Kernel.Points
import proofs.«111106_j18090402250757_2_alg».proof.Proof.Gen.Kernel.Frame
import proofs.«111106_j18090402250757_2_alg».proof.Proof.Gen.KernelIdeal
import proofs.«111106_j18090402250757_2_alg».proof.Proof.Gen.KernelIdeal.Skeleton
import proofs.«111106_j18090402250757_2_alg».proof.Proof.Gen.KernelIdeal.Launch
import proofs.«111106_j18090402250757_2_alg».proof.Proof.Gen.KernelIdeal.Points
import proofs.«111106_j18090402250757_2_alg».proof.Proof.Gen.KernelIdeal.Frame
import proofs.«111106_j18090402250757_2_alg».proof.Proof.Gen.ReferenceIdeal
import proofs.«111106_j18090402250757_2_alg».proof.Proof.Gen.ReferenceIdeal.Run
import proofs.«111106_j18090402250757_2_alg».proof.Proof.Gen.ReferenceIdeal.Read
import proofs.«111106_j18090402250757_2_alg».proof.Proof.Gen.Pre_finite_inputs
import proofs.«111106_j18090402250757_2_alg».proof.Proof.Spec
import proofs.«111106_j18090402250757_2_alg».proof.Proof.RefSide
import proofs.«111106_j18090402250757_2_alg».proof.Proof.KArr
import Idealize.ShloMosaic.Adequacy
import Idealize.ShloMosaic.Init

noncomputable section

namespace Cert.Attn.Ref

open Cert.ReferenceIdeal Cert.ReferenceIdeal.Facts₀ Idealize.ShloMosaic Idealize.ShloMosaic.TcCoe Idealize.SL.Sem

variable [Cert.ReferenceIdeal.Facts]

/-- The reference's first result is the aggregate array of its reshaped arguments, with the trailing axes rejoined. -/
theorem out0_eq (m : (ℓ : Loc nD τ sig) → Buf (Elt Ideal) ℓ) (c : Dev nD) :
    Cert.ReferenceIdeal.Value.res_main_v31 m c
      = shapeCast _ (Cert.Attn.mixArr
          (shapeCast _ (m ((c.tc : Thread nD τ).loc main_arg0)) shapeCasts_S4x2048x128_S4x2048x32x4)
          (shapeCast _ (m ((c.tc : Thread nD τ).loc main_arg1)) shapeCasts_S4x2048x128_S4x2048x32x4)
          (shapeCast _ (m ((c.tc : Thread nD τ).loc main_arg2)) shapeCasts_S4x2048x16x128_S4x2048x16x32x4)
          (shapeCast _ (m ((c.tc : Thread nD τ).loc main_arg3)) shapeCasts_S4x2048x16x128_S4x2048x16x32x4)
          (m ((c.tc : Thread nD τ).loc main_arg4))) shapeCasts_S4x2048x32x4_S4x2048x128 := by
  rw [Cert.ReferenceIdeal.Read.val_main_v31_eq]
  unfold Cert.ReferenceIdeal.Read.val_main_v31
  rw [ref_mix]
  rfl

/-- The reference's second result is the coefficient array of its reshaped arguments. -/
theorem out1_eq (m : (ℓ : Loc nD τ sig) → Buf (Elt Ideal) ℓ) (c : Dev nD) :
    Cert.ReferenceIdeal.Value.res_main_v26 m c
      = Cert.Attn.coefArr
          (shapeCast _ (m ((c.tc : Thread nD τ).loc main_arg0)) shapeCasts_S4x2048x128_S4x2048x32x4)
          (shapeCast _ (m ((c.tc : Thread nD τ).loc main_arg1)) shapeCasts_S4x2048x128_S4x2048x32x4)
          (shapeCast _ (m ((c.tc : Thread nD τ).loc main_arg2)) shapeCasts_S4x2048x16x128_S4x2048x16x32x4)
          (m ((c.tc : Thread nD τ).loc main_arg4)) := by
  rw [Cert.ReferenceIdeal.Read.val_main_v26_eq, ref_coef]
  rfl

end Cert.Attn.Ref

namespace Cert.Proof

open Idealize.ShloMosaic Idealize.SL.Sem

/-- The three frames are the programs' runs with the results dropped; nothing was rewritten by the idealization, so
    `preserves` holds trivially; and the two idealized programs end with the same two arrays of arguments that agree. -/
theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2.2) (Cert.ReferenceIdeal.Value.run (F := Ideal) m ρ),
  trivial,
  by
    intro m ρ m' ρ' _ hagree
    refine ⟨_, _, Cert.Attn.Ker.run m ρ, ?_⟩
    refine (θ_run Cert.ReferenceIdeal.defs _ _).mono (fun _ h c => ⟨(h c).1.trans ?_, (h c).2.1.trans ?_, (h c).2.2⟩)
      (Cert.ReferenceIdeal.Value.run (F := Ideal) m' ρ')
    · rw [Cert.Attn.Ref.out0_eq, (hagree c).1, (hagree c).2.1, (hagree c).2.2.1, (hagree c).2.2.2.1, (hagree c).2.2.2.2]
    · rw [Cert.Attn.Ref.out1_eq, (hagree c).1, (hagree c).2.1, (hagree c).2.2.1, (hagree c).2.2.2.2]⟩

end Cert.Proof

end
